-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x2048 : Shape := ⟨2, ![10000, 2048]⟩
abbrev S2048x10000 : Shape := ⟨2, ![2048, 10000]⟩
abbrev S3 : Shape := ⟨1, ![3]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x2048 : S_.BroadcastsInDim S10000x2048 (![] : Fin 0 → Fin S10000x2048.rank)
  reducesTo_S10000x2048_S_d0_1 : S10000x2048.ReducesTo [0, 1] S_
  bcast_S_S2048x10000 : S_.BroadcastsInDim S2048x10000 (![] : Fin 0 → Fin S2048x10000.rank)
  reducesTo_S2048x10000_S_d0_1 : S2048x10000.ReducesTo [0, 1] S_
  bcast_S_S3 : S_.BroadcastsInDim S3 (![] : Fin 0 → Fin S3.rank)
  reducesTo_S3_S_d0 : S3.ReducesTo [0] S_

variable [Facts]

def fn_part1 {F : FTy → Type} [FloatOps F] (main_v13 : IVec S_ 1) (main_v16 : IVec S3 1) : IVec S_ 1 :=
  let main_c_5 : IVec S_ 1 := constantI S_ 1 1#1
  let main_v17 : IVec S_ 1 := (fun x v => Host.reduce IntOp.andi x v reducesTo_S3_S_d0 h_S_) main_v16 main_c_5
  let main_v18 : IVec S_ 1 := andi main_v13 main_v17
  main_v18

def fn {F : FTy → Type} [FloatOps F] (main_arg0 : FVec F S10000x128 .f32) (main_arg1 : FVec F S10000x2048 .f32) (main_arg2 : FVec F S2048x10000 .f32) (main_arg3 : FVec F S3 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x2048 .f32 := Host.absf main_arg1
  let main_cst_0 : FVec F S_ .f32 := constant S_ .f32 0x7F800000#32
  let main_v5 : FVec F S10000x2048 .f32 := broadcastInDim S10000x2048 ![] bcast_S_S10000x2048 main_cst_0
  let main_v6 : IVec S10000x2048 1 := cmpf .olt main_v4 main_v5
  let main_c_1 : IVec S_ 1 := constantI S_ 1 1#1
  let main_v7 : IVec S_ 1 := (fun x v => Host.reduce IntOp.andi x v reducesTo_S10000x2048_S_d0_1 h_S_) main_v6 main_c_1
  let main_v8 : IVec S_ 1 := andi main_v3 main_v7
  let main_v9 : FVec F S2048x10000 .f32 := Host.absf main_arg2
  let main_cst_2 : FVec F S_ .f32 := constant S_ .f32 0x7F800000#32
  let main_v10 : FVec F S2048x10000 .f32 := broadcastInDim S2048x10000 ![] bcast_S_S2048x10000 main_cst_2
  let main_v11 : IVec S2048x10000 1 := cmpf .olt main_v9 main_v10
  let main_c_3 : IVec S_ 1 := constantI S_ 1 1#1
  let main_v12 : IVec S_ 1 := (fun x v => Host.reduce IntOp.andi x v reducesTo_S2048x10000_S_d0_1 h_S_) main_v11 main_c_3
  let main_v13 : IVec S_ 1 := andi main_v8 main_v12
  let main_v14 : FVec F S3 .f32 := Host.absf main_arg3
  let main_cst_4 : FVec F S_ .f32 := constant S_ .f32 0x7F800000#32
  let main_v15 : FVec F S3 .f32 := broadcastInDim S3 ![] bcast_S_S3 main_cst_4
  let main_v16 : IVec S3 1 := cmpf .olt main_v14 main_v15
  fn_part1 (F := F) main_v13 main_v16
-- ==== Kernel.lean ====
abbrev S10000x128 : Shape := ⟨2, ![10000, 128]⟩
abbrev S10000x2048 : Shape := ⟨2, ![10000, 2048]⟩
abbrev S2048x10000 : Shape := ⟨2, ![2048, 10000]⟩
abbrev S3 : Shape := ⟨1, ![3]⟩
abbrev S1x3 : Shape := ⟨2, ![1, 3]⟩
abbrev S2048x128 : Shape := ⟨2, ![2048, 128]⟩
abbrev S256x10000 : Shape := ⟨2, ![256, 10000]⟩
abbrev S256x128 : Shape := ⟨2, ![256, 128]⟩
abbrev S1000x2048 : Shape := ⟨2, ![1000, 2048]⟩
abbrev S1000x128 : Shape := ⟨2, ![1000, 128]⟩
abbrev S1 : Shape := ⟨1, ![1]⟩
abbrev S1x1 : Shape := ⟨2, ![1, 1]⟩

abbrev nBuf : Space → Nat
  | .hbm => 9
  | .vmem => 27
  | .smem => 0
  | _ => 0

abbrev bufTy : (tb : Table) → Fin (tcTables nBuf tb) → BufTy
  | .hbm, ⟨0, _⟩ => ⟨S10000x128, .f32⟩
  | .hbm, ⟨1, _⟩ => ⟨S10000x2048, .f32⟩
  | .hbm, ⟨2, _⟩ => ⟨S2048x10000, .f32⟩
  | .hbm, ⟨3, _⟩ => ⟨S3, .f32⟩
  | .hbm, ⟨4, _⟩ => ⟨S1x3, .f32⟩
  | .hbm, ⟨5, _⟩ => ⟨S2048x128, .f32⟩
  | .hbm, ⟨6, _⟩ => ⟨S10000x128, .f32⟩
  | .hbm, ⟨7, _⟩ => ⟨S2048x128, .f32⟩
  | .hbm, ⟨8, _⟩ => ⟨S10000x128, .f32⟩
  | .local _ .vmem, ⟨0, _⟩ => ⟨S256x10000, .f32⟩
  | .local _ .vmem, ⟨1, _⟩ => ⟨S256x10000, .f32⟩
  | .local _ .vmem, ⟨2, _⟩ => ⟨S10000x128, .f32⟩
  | .local _ .vmem, ⟨3, _⟩ => ⟨S256x128, .f32⟩
  | .local _ .vmem, ⟨4, _⟩ => ⟨S256x128, .f32⟩
  | .local _ .vmem, ⟨5, _⟩ => ⟨S1000x2048, .f32⟩
  | .local _ .vmem, ⟨6, _⟩ => ⟨S1000x2048, .f32⟩
  | .local _ .vmem, ⟨7, _⟩ => ⟨S2048x128, .f32⟩
  | .local _ .vmem, ⟨8, _⟩ => ⟨S1000x128, .f32⟩
  | .local _ .vmem, ⟨9, _⟩ => ⟨S1000x128, .f32⟩
  | .local _ .vmem, ⟨10, _⟩ => ⟨S1000x128, .f32⟩
  | .local _ .vmem, ⟨11, _⟩ => ⟨S1000x128, .f32⟩
  | .local _ .vmem, ⟨12, _⟩ => ⟨S256x10000, .f32⟩
  | .local _ .vmem, ⟨13, _⟩ => ⟨S256x10000, .f32⟩
  | .local _ .vmem, ⟨14, _⟩ => ⟨S10000x128, .f32⟩
  | .local _ .vmem, ⟨15, _⟩ => ⟨S256x128, .f32⟩
  | .local _ .vmem, ⟨16, _⟩ => ⟨S256x128, .f32⟩
  | .local _ .vmem, ⟨17, _⟩ => ⟨S1000x2048, .f32⟩
  | .local _ .vmem, ⟨18, _⟩ => ⟨S1000x2048, .f32⟩
  | .local _ .vmem, ⟨19, _⟩ => ⟨S2048x128, .f32⟩
  | .local _ .vmem, ⟨20, _⟩ => ⟨S1000x128, .f32⟩
  | .local _ .vmem, ⟨21, _⟩ => ⟨S1000x128, .f32⟩
  | .local _ .vmem, ⟨22, _⟩ => ⟨S1000x128, .f32⟩
  | .local _ .vmem, ⟨23, _⟩ => ⟨S1000x128, .f32⟩
  | .local _ .vmem, ⟨24, _⟩ => ⟨S1x3, .f32⟩
  | .local _ .vmem, ⟨25, _⟩ => ⟨S1000x128, .f32⟩
  | .local _ .vmem, ⟨26, _⟩ => ⟨S1000x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg2_1 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg2_0 : Ref sig .tc := ⟨.vmem, 20, rfl⟩
abbrev cc3_stg2_1 : Ref sig .tc := ⟨.vmem, 21, rfl⟩
abbrev cc3_stg3_0 : Ref sig .tc := ⟨.vmem, 22, rfl⟩
abbrev cc3_stg3_1 : Ref sig .tc := ⟨.vmem, 23, rfl⟩
abbrev cc3_stg4_0 : Ref sig .tc := ⟨.vmem, 24, rfl⟩
abbrev cc3_stg5_0 : Ref sig .tc := ⟨.vmem, 25, rfl⟩
abbrev cc3_stg5_1 : Ref sig .tc := ⟨.vmem, 26, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem2_1 : DmaSem sig := 16
abbrev cc3_sem0_0 : DmaSem sig := 17
abbrev cc3_sem0_1 : DmaSem sig := 18
abbrev cc3_sem1_0 : DmaSem sig := 19
abbrev cc3_sem2_0 : DmaSem sig := 20
abbrev cc3_sem2_1 : DmaSem sig := 21
abbrev cc3_sem3_0 : DmaSem sig := 22
abbrev cc3_sem3_1 : DmaSem sig := 23
abbrev cc3_sem4_0 : DmaSem sig := 24
abbrev cc3_sem5_0 : DmaSem sig := 25
abbrev cc3_sem5_1 : DmaSem sig := 26

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S10000x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1000x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S2048x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S1000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S256x10000 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S10000x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S256x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S1000x2048 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S2048x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S1000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S1000x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 1 → Memref sig .tc .vmem S1x3 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S1000x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

class Facts₀ : Prop where
  shapeCasts_S3_S1x3 : S3.ShapeCasts S1x3
  inb_S256x10000_S256x10000_0_0 : ∀ a, (![0, 0] : Fin 2 → Nat) a + S256x10000.size a ≤ S256x10000.size a
  h_S256x10000 : 0 < S256x10000.numel
  bitsLt_bf16_f32 : FTy.bits .bf16 < FTy.bits .f32
  inb_S10000x128_S10000x128_0_0 : ∀ a, (![0, 0] : Fin 2 → Nat) a + S10000x128.size a ≤ S10000x128.size a
  h_S10000x128 : 0 < S10000x128.numel
  inb_S256x128_S256x128_0_0 : ∀ a, (![0, 0] : Fin 2 → Nat) a + S256x128.size a ≤ S256x128.size a
  h_S256x128 : 0 < S256x128.numel
  inb_S1000x2048_S1000x2048_0_0 : ∀ a, (![0, 0] : Fin 2 → Nat) a + S1000x2048.size a ≤ S1000x2048.size a
  h_S1000x2048 : 0 < S1000x2048.numel
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  inb_S1000x128_S1000x128_0_0 : ∀ a, (![0, 0] : Fin 2 → Nat) a + S1000x128.size a ≤ S1000x128.size a
  h_S1000x128 : 0 < S1000x128.numel
  shapeCasts_S10000x128_S10000x128 : S10000x128.ShapeCasts S10000x128
  inb_S1x3_S1x3_0_0 : ∀ a, (![0, 0] : Fin 2 → Nat) a + S1x3.size a ≤ S1x3.size a
  h_S1x3 : 0 < S1x3.numel
  shapeCasts_S1x3_S3 : S1x3.ShapeCasts S3
  reduces_S1x3_S1 : S1x3.Reduces [1] S1
  shapeCasts_S1_S1x1 : S1.ShapeCasts S1x1
  inpos_S1x1_p0_0 : ∀ a, (![0, 0] : Fin 2 → Nat) a < S1x1.size a
  slices_S3_o0_S1 : S3.Slices ![0] S1
  inpos_S1_p0 : ∀ a, (![0] : Fin 1 → Nat) a < S1.size a
  slices_S3_o1_S1 : S3.Slices ![1] S1
  slices_S3_o2_S1 : S3.Slices ![2] S1
  shapeCasts_S1000x128_S1000x128 : S1000x128.ShapeCasts S1000x128
  dot_S256x10000_S10000x128_S256x128_1_0_0_1_n_n_wf : DotDims.WF S256x10000 S10000x128 S256x128 [1] [0] [0] [1] [] []
  dot_S1000x2048_S2048x128_S1000x128_1_0_0_1_n_n_wf : DotDims.WF S1000x2048 S2048x128 S1000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x10000.size a ≤ S2048x10000.size a
  hwx0_0 : ∀ i : grid0.Coords, EltTy.bits .f32 = 32 ∨ (Rect.block (s := S2048x10000) S256x10000.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S10000x128.size a ≤ S10000x128.size a
  hwx0_1 : ∀ i : grid0.Coords, EltTy.bits .f32 = 32 ∨ (Rect.block (s := S10000x128) S10000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x128.size a ≤ S2048x128.size a
  hwx0_2 : ∀ i : grid0.Coords, EltTy.bits .f32 = 32 ∨ (Rect.block (s := S2048x128) S256x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1000x2048.size a ≤ S10000x2048.size a
  hwx1_0 : ∀ i : grid1.Coords, EltTy.bits .f32 = 32 ∨ (Rect.block (s := S10000x2048) S1000x2048.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S2048x128.size a ≤ S2048x128.size a
  hwx1_1 : ∀ i : grid1.Coords, EltTy.bits .f32 = 32 ∨ (Rect.block (s := S2048x128) S2048x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1000x128.size a ≤ S10000x128.size a
  hwx1_2 : ∀ i : grid1.Coords, EltTy.bits .f32 = 32 ∨ (Rect.block (s := S10000x128) S1000x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1000x128.size a ≤ S10000x128.size a
  hwx1_3 : ∀ i : grid1.Coords, EltTy.bits .f32 = 32 ∨ (Rect.block (s := S10000x128) S1000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S256x10000.size a ≤ S2048x10000.size a
  hwx2_0 : ∀ i : grid2.Coords, EltTy.bits .f32 = 32 ∨ (Rect.block (s := S2048x10000) S256x10000.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S10000x128.size a ≤ S10000x128.size a
  hwx2_1 : ∀ i : grid2.Coords, EltTy.bits .f32 = 32 ∨ (Rect.block (s := S10000x128) S10000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S256x128.size a ≤ S2048x128.size a
  hwx2_2 : ∀ i : grid2.Coords, EltTy.bits .f32 = 32 ∨ (Rect.block (s := S2048x128) S256x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1000x2048.size a ≤ S10000x2048.size a
  hwx3_0 : ∀ i : grid3.Coords, EltTy.bits .f32 = 32 ∨ (Rect.block (s := S10000x2048) S1000x2048.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S2048x128.size a ≤ S2048x128.size a
  hwx3_1 : ∀ i : grid3.Coords, EltTy.bits .f32 = 32 ∨ (Rect.block (s := S2048x128) S2048x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1000x128.size a ≤ S10000x128.size a
  hwx3_2 : ∀ i : grid3.Coords, EltTy.bits .f32 = 32 ∨ (Rect.block (s := S10000x128) S1000x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S1000x128.size a ≤ S10000x128.size a
  hwx3_3 : ∀ i : grid3.Coords, EltTy.bits .f32 = 32 ∨ (Rect.block (s := S10000x128) S1000x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x3.size a ≤ S1x3.size a
  hwx3_4 : ∀ i : grid3.Coords, EltTy.bits .f32 = 32 ∨ (Rect.block (s := S1x3) S1x3.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S1000x128.size a ≤ S10000x128.size a
  hwx3_5 : ∀ i : grid3.Coords, EltTy.bits .f32 = 32 ∨ (Rect.block (s := S10000x128) S1000x128.size (cc3_transform_5 i) (hinb3_5 i)).WholeWords (EltTy.packing .f32)

variable [Facts₀]

def dot_S256x10000_S10000x128_S256x128_1_0_0_1_n_n : DotDims S256x10000 S10000x128 S256x128 where
  lhsContracting := [1]
  rhsContracting := [0]
  lhsNonContracting := [0]
  rhsNonContracting := [1]
  lhsBatch := []
  rhsBatch := []
  wf := dot_S256x10000_S10000x128_S256x128_1_0_0_1_n_n_wf
def dot_S1000x2048_S2048x128_S1000x128_1_0_0_1_n_n : DotDims S1000x2048 S2048x128 S1000x128 where
  lhsContracting := [1]
  rhsContracting := [0]
  lhsNonContracting := [0]
  rhsNonContracting := [1]
  lhsBatch := []
  rhsBatch := []
  wf := dot_S1000x2048_S2048x128_S1000x128_1_0_0_1_n_n_wf

abbrev win0_0 : Pipeline.Window sig grid0 :=
  Pipeline.Window.ofSpec (Memref.whole main_arg2) S256x10000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S10000x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S256x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg1) S1000x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S2048x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg0) S1000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v2) S1000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_arg2) S256x10000.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v2) S10000x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v3) S256x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_arg1) S1000x2048.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v3) S2048x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v2) S1000x128.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_arg0) S1000x128.size cc3_transform_3 reads3_3 false false 2 stage3_3 sem3_3
    hrank3 hreads3_3 hinb3_3 nbuf3_3 (Memref.isWhole_whole _) hwx3_3 hstage3_3

abbrev win3_4 : Pipeline.Window sig grid3 :=
  Pipeline.Window.ofSpec (Memref.whole main_v0) S1x3.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v4) S1000x128.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

class Facts : Prop extends Facts₀ where

variable [Facts]
-- ==== ReferenceIdeal.lean ====
abbrev S10000x128 : Shape := ⟨2, ![10000, 128]⟩
abbrev S10000x2048 : Shape := ⟨2, ![10000, 2048]⟩
abbrev S2048x10000 : Shape := ⟨2, ![2048, 10000]⟩
abbrev S3 : Shape := ⟨1, ![3]⟩
abbrev S2048x128 : Shape := ⟨2, ![2048, 128]⟩
abbrev S_ : Shape := ⟨0, ![]⟩
abbrev S1 : Shape := ⟨1, ![1]⟩
abbrev S1x10000x128 : Shape := ⟨3, ![1, 10000, 128]⟩
abbrev S3x10000x128 : Shape := ⟨3, ![3, 10000, 128]⟩
abbrev S3x1x1 : Shape := ⟨3, ![3, 1, 1]⟩

abbrev nBuf : Space → Nat
  | .hbm => 38
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x2048, .f32⟩
  | .hbm, ⟨2, _⟩ => ⟨S2048x10000, .f32⟩
  | .hbm, ⟨3, _⟩ => ⟨S3, .f32⟩
  | .hbm, ⟨4, _⟩ => ⟨S2048x128, .f32⟩
  | .hbm, ⟨5, _⟩ => ⟨S10000x128, .f32⟩
  | .hbm, ⟨6, _⟩ => ⟨S_, .f32⟩
  | .hbm, ⟨7, _⟩ => ⟨S10000x128, .f32⟩
  | .hbm, ⟨8, _⟩ => ⟨S10000x128, .f32⟩
  | .hbm, ⟨9, _⟩ => ⟨S10000x128, .f32⟩
  | .hbm, ⟨10, _⟩ => ⟨S2048x128, .f32⟩
  | .hbm, ⟨11, _⟩ => ⟨S10000x128, .f32⟩
  | .hbm, ⟨12, _⟩ => ⟨S_, .f32⟩
  | .hbm, ⟨13, _⟩ => ⟨S10000x128, .f32⟩
  | .hbm, ⟨14, _⟩ => ⟨S10000x128, .f32⟩
  | .hbm, ⟨15, _⟩ => ⟨S10000x128, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S1, .f32⟩
  | .hbm, ⟨21, _⟩ => ⟨S3, .f32⟩
  | .hbm, ⟨22, _⟩ => ⟨S3, .f32⟩
  | .hbm, ⟨23, _⟩ => ⟨S3, .f32⟩
  | .hbm, ⟨24, _⟩ => ⟨S_, .f32⟩
  | .hbm, ⟨25, _⟩ => ⟨S_, .f32⟩
  | .hbm, ⟨26, _⟩ => ⟨S1, .f32⟩
  | .hbm, ⟨27, _⟩ => ⟨S3, .f32⟩
  | .hbm, ⟨28, _⟩ => ⟨S3, .f32⟩
  | .hbm, ⟨29, _⟩ => ⟨S1x10000x128, .f32⟩
  | .hbm, ⟨30, _⟩ => ⟨S1x10000x128, .f32⟩
  | .hbm, ⟨31, _⟩ => ⟨S1x10000x128, .f32⟩
  | .hbm, ⟨32, _⟩ => ⟨S3x10000x128, .f32⟩
  | .hbm, ⟨33, _⟩ => ⟨S3x1x1, .f32⟩
  | .hbm, ⟨34, _⟩ => ⟨S3x10000x128, .f32⟩
  | .hbm, ⟨35, _⟩ => ⟨S3x10000x128, .f32⟩
  | .hbm, ⟨36, _⟩ => ⟨S_, .f32⟩
  | .hbm, ⟨37, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_cst : Ref sig .tc := ⟨.hbm, 6, rfl⟩
abbrev main_call0_v0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_call1_cst : Ref sig .tc := ⟨.hbm, 12, rfl⟩
abbrev main_call1_v0 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_1 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_2 : Ref sig .tc := ⟨.hbm, 36, rfl⟩
abbrev main_v25 : Ref sig .tc := ⟨.hbm, 37, rfl⟩

abbrev nD : Nat := 1
abbrev τ : Topo := Topo.v7x

variable {F : FTy → Type} [FloatOps F]

class Facts₀ : Prop where
  bcast_S_S10000x128 : S_.BroadcastsInDim S10000x128 (![] : Fin 0 → Fin S10000x128.rank)
  reducesTo_S3_S_d0 : S3.ReducesTo [0] S_
  h_S_ : 0 < S_.numel
  bcast_S_S1 : S_.BroadcastsInDim S1 (![] : Fin 0 → Fin S1.rank)
  bcast_S1_S3_0 : S1.BroadcastsInDim S3 (![0] : Fin 1 → Fin S3.rank)
  bcast_S10000x128_S1x10000x128_1_2 : S10000x128.BroadcastsInDim S1x10000x128 (![1, 2] : Fin 2 → Fin S1x10000x128.rank)
  concatenates_S1x10000x128_S1x10000x128_S1x10000x128_S3x10000x128_d0 : Shape.Concatenates [S1x10000x128, S1x10000x128, S1x10000x128] S3x10000x128 0
  bcast_S3_S3x1x1_0 : S3.BroadcastsInDim S3x1x1 (![0] : Fin 1 → Fin S3x1x1.rank)
  bcast_S3x1x1_S3x10000x128_0_1_2 : S3x1x1.BroadcastsInDim S3x10000x128 (![0, 1, 2] : Fin 3 → Fin S3x10000x128.rank)
  reducesTo_S3x10000x128_S10000x128_d0 : S3x10000x128.ReducesTo [0] S10000x128
  dot_S2048x10000_S10000x128_S2048x128_1_0_0_1_n_n_wf : DotDims.WF S2048x10000 S10000x128 S2048x128 [1] [0] [0] [1] [] []
  dot_S10000x2048_S2048x128_S10000x128_1_0_0_1_n_n_wf : DotDims.WF S10000x2048 S2048x128 S10000x128 [1] [0] [0] [1] [] []

variable [Facts₀]

def dot_S2048x10000_S10000x128_S2048x128_1_0_0_1_n_n : DotDims S2048x10000 S10000x128 S2048x128 where
  lhsContracting := [1]
  rhsContracting := [0]
  lhsNonContracting := [0]
  rhsNonContracting := [1]
  lhsBatch := []
  rhsBatch := []
  wf := dot_S2048x10000_S10000x128_S2048x128_1_0_0_1_n_n_wf
def dot_S10000x2048_S2048x128_S10000x128_1_0_0_1_n_n : DotDims S10000x2048 S2048x128 S10000x128 where
  lhsContracting := [1]
  rhsContracting := [0]
  lhsNonContracting := [0]
  rhsNonContracting := [1]
  lhsBatch := []
  rhsBatch := []
  wf := dot_S10000x2048_S2048x128_S10000x128_1_0_0_1_n_n_wf

class Facts : Prop extends Facts₀ where

variable [Facts]
-- ==== Proof.LibMatProd.lean ====
/-
  The product of two matrices over the extended reals, entry by entry: entry (p, q) of A·B is the sum over k of
  A (p, k) · B (k, q). A band of consecutive rows of A·B is the product of that band of rows of A with the whole of B:
  each entry's sum runs over the same pairs of entries, so the two sums are equal term by term — no law of the
  extended reals is used, and nothing has to be finite.
-/
import Idealize.ShloMosaic.PureOps.Ideal.Laws
import Idealize.ShloMosaic.Lib.ValueIdx

noncomputable section

namespace Cert.LibMatProd

open Idealize.ShloMosaic Idealize.ShloMosaic.ValueIdx

/-- The matrix product `[a, K] × [K, b] → [a, b]` on the extended reals. -/
def mm {a K b : Nat} (A : (⟨2, ![a, K]⟩ : Shape).Idx → EReal) (B : (⟨2, ![K, b]⟩ : Shape).Idx → EReal) :
    (⟨2, ![a, b]⟩ : Shape).Idx → EReal :=
  fun j => ∑ k : Fin K, A (ix2 (j 0) k) * B (ix2 k (j 1))

theorem mm_apply {a K b : Nat} (A : (⟨2, ![a, K]⟩ : Shape).Idx → EReal) (B : (⟨2, ![K, b]⟩ : Shape).Idx → EReal)
    (j : (⟨2, ![a, b]⟩ : Shape).Idx) : mm A B j = ∑ k : Fin K, A (ix2 (j 0) k) * B (ix2 k (j 1)) := rfl

/-- An entry of a product of a band of rows equals the entry of the whole product it sits at: if row `y 0` of `X`
    is row `i 0` of `A`, and column `y 1` of `Y` is column `i 1` of `B`, the two sums have equal terms. -/
theorem mm_entry_congr {h n K b b' : Nat} (X : (⟨2, ![h, K]⟩ : Shape).Idx → EReal) (Y : (⟨2, ![K, b]⟩ : Shape).Idx → EReal)
    (A : (⟨2, ![n, K]⟩ : Shape).Idx → EReal) (B : (⟨2, ![K, b']⟩ : Shape).Idx → EReal)
    (y : (⟨2, ![h, b]⟩ : Shape).Idx) (i : (⟨2, ![n, b']⟩ : Shape).Idx)
    (hX : ∀ k : Fin K, X (ix2 (y 0) k) = A (ix2 (i 0) k))
    (hY : ∀ k : Fin K, Y (ix2 k (y 1)) = B (ix2 k (i 1))) :
    mm X Y y = mm A B i := by
  rw [mm_apply, mm_apply]
  exact Finset.sum_congr rfl fun k _ => by rw [hX k, hY k]

end Cert.LibMatProd

end
-- ==== Proof.LibReals.lean ====
/-
  Real numbers among the extended reals, and two re-indexings over a vector's coordinates.

  An extended real is a real when it is the image of a real number. Sums, differences, products and maxima of reals are
  reals, and so is a finite sum of reals: on such values the extended reals obey the laws of the real field, which they
  do not at the infinities. A maximum folded from −∞ over a finite set is −∞ over the empty set and is attained
  otherwise. A sum or a folded maximum over ALL indices of a vector of n entries is the sum or maximum over its n
  coordinates. The bit pattern 0xFF800000 denotes −∞.
-/
import Idealize.ShloMosaic.PureOps.Ideal.Laws
import Idealize.ShloMosaic.Lib.ValueIdx

noncomputable section

namespace Cert.LibReals

open Idealize.ShloMosaic Idealize.ShloMosaic.ValueIdx

/-- The bit pattern of −∞ denotes −∞. -/
theorem ofBits_neg_inf : Ideal.ofBits .f32 0xFF800000#32 = (⊥ : EReal) := by simp [Ideal.ofBits, Ideal.ieee]

/-- A sum over the indices of a vector of n entries is the sum over its n coordinates. -/
theorem sum_ix1 {M : Type*} [AddCommMonoid M] {n : Nat} (f : (⟨1, ![n]⟩ : Shape).Idx → M) :
    ∑ j, f j = ∑ k : Fin n, f (ix1 k) :=
  (Equiv.sum_comp (⟨ix1, fun j => j 0, fun k => rfl, fun j => (eq_ix1 j).symm⟩ : Fin n ≃ (⟨1, ![n]⟩ : Shape).Idx) f).symm

/-- A maximum folded over a set holding every index of a vector of n entries is the maximum over its n coordinates. -/
theorem fold_max_ix1 {n : Nat} (b : EReal) (f : (⟨1, ![n]⟩ : Shape).Idx → EReal) (s : Finset (⟨1, ![n]⟩ : Shape).Idx)
    (hs : ∀ j, j ∈ s) : s.fold max b f = (Finset.univ : Finset (Fin n)).fold max b (fun k => f (ix1 k)) := by
  apply le_antisymm
  · refine (Finset.fold_max_le _).2 ⟨(Finset.le_fold_max b).2 (Or.inl le_rfl), fun j _ => ?_⟩
    exact (Finset.le_fold_max (f j)).2 (Or.inr ⟨j 0, Finset.mem_univ _, le_of_eq (congrArg f (eq_ix1 j))⟩)
  · refine (Finset.fold_max_le _).2 ⟨(Finset.le_fold_max b).2 (Or.inl le_rfl), fun k _ => ?_⟩
    exact (Finset.le_fold_max _).2 (Or.inr ⟨ix1 k, hs _, le_rfl⟩)

/-- An extended real that is a real number. -/
def IsReal (x : EReal) : Prop := ∃ r : ℝ, x = (r : EReal)

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.sub {x y : EReal} (hx : IsReal x) (hy : IsReal y) : IsReal (x - y) := by
  obtain ⟨a, rfl⟩ := hx; obtain ⟨b, rfl⟩ := hy; exact ⟨a - b, (EReal.coe_sub a b).symm⟩

theorem IsReal.max {x y : EReal} (hx : IsReal x) (hy : IsReal y) : IsReal (max x y) := by
  rcases max_choice x y with h | h <;> rw [h] <;> assumption

theorem isReal_zero : IsReal 0 := ⟨0, rfl⟩

theorem IsReal.sum {ι : Type} (s : Finset ι) (f : ι → EReal) (h : ∀ k ∈ s, IsReal (f k)) : IsReal (∑ k ∈ s, f k) := by
  classical
  induction s using Finset.induction_on with
  | empty => exact ⟨0, by simp⟩
  | insert a s ha ih =>
    rw [Finset.sum_insert ha]
    exact (h a (Finset.mem_insert_self a s)).add (ih fun k hk => h k (Finset.mem_insert_of_mem hk))

/-- The maximum of finitely many extended reals, folded from −∞, is −∞ over the empty set and is attained otherwise. -/
theorem fold_max_attained {ι : Type} (s : Finset ι) (f : ι → EReal) :
    s = ∅ ∨ ∃ k ∈ s, s.fold max ⊥ f = f k := by
  classical
  induction s using Finset.induction_on with
  | empty => exact Or.inl rfl
  | insert a s ha ih =>
    right
    rw [Finset.fold_insert ha]
    rcases ih with h | ⟨k, hk, h⟩
    · subst h
      exact ⟨a, Finset.mem_insert_self a _, by rw [Finset.fold_empty]; exact max_bot_right (f a)⟩
    · rcases max_choice (f a) (s.fold max ⊥ f) with h' | h'
      · exact ⟨a, Finset.mem_insert_self a s, h'⟩
      · exact ⟨k, Finset.mem_insert_of_mem hk, h'.trans h⟩

end Cert.LibReals

end
-- ==== Proof.Spec.lean ====
/-
  Two rounds of message passing over a directed hypergraph, and their attention-weighted sum, on the extended reals.

  One round sends the node features x (10000 × 128) to the hyperedges through the incidence matrix HT (2048 × 10000),
  brings them back through HS (10000 × 2048), clips at zero and adds x:  layer x = max (HS · (HT · x)) 0 + x.
  With x₀ = x, x₁ = layer x₀, x₂ = layer x₁ and w = softmax a (three weights), the result is Σ_l x_l · w_l.
  One arrangement of that sum groups the two copies of x₁:  w₀·x₀ + (w₁ + w₂)·x₁ + w₂·max (HS · (HT · x₁)) 0; the other
  is the plain sum 0 + (x₀·w₀ + x₁·w₁ + x₂·w₂). They agree when every entry is a real number, by distributivity — which
  the extended reals have only away from the infinities, so realness of every intermediate entry is proved first:
  sums, products and maxima of reals are reals, the exponential of a real is a positive real, and the quotient of a
  real by a nonzero real is a real.
-/
import Idealize.ShloMosaic.PureOps.Ideal.Laws
import Idealize.ShloMosaic.Lib.ValueIdx
import proofs.«136136_g26070451486833_cont_8to1_1708_3_alg».proof.Proof.LibMatProd
import proofs.«136136_g26070451486833_cont_8to1_1708_3_alg».proof.Proof.LibReals

noncomputable section

namespace Cert.HyperConv

open Idealize.ShloMosaic Idealize.ShloMosaic.ValueIdx Cert.LibMatProd Cert.LibReals

/-- A matrix of extended reals. -/
abbrev Mat (a b : Nat) : Type := (⟨2, ![a, b]⟩ : Shape).Idx → EReal
/-- The three attention logits. -/
abbrev Logits : Type := (⟨1, ![3]⟩ : Shape).Idx → EReal

/-- The message a round brings back to the nodes: HS · (HT · x). -/
def msg (HS : Mat 10000 2048) (HT : Mat 2048 10000) (x : Mat 10000 128) : Mat 10000 128 := mm HS (mm HT x)

/-- One round: the message clipped at zero, plus the features it started from. -/
def layer (HS : Mat 10000 2048) (HT : Mat 2048 10000) (x : Mat 10000 128) : Mat 10000 128 :=
  fun i => max (msg HS HT x i) 0 + x i

/-- The clip at zero and the residual add, over a product already formed: max (HS · T) 0 + x. -/
def reluAdd (HS : Mat 10000 2048) (T : Mat 2048 128) (x : Mat 10000 128) : Mat 10000 128 :=
  fun i => max (mm HS T i) 0 + x i

theorem layer_eq (HS : Mat 10000 2048) (HT : Mat 2048 10000) (x : Mat 10000 128) :
    layer HS HT x = reluAdd HS (mm HT x) x := rfl

/-- The largest logit (the fold of max from −∞). -/
def amax (a : Logits) : EReal := (Finset.univ : Finset (Fin 3)).fold max ⊥ (fun k => a (ix1 k))
/-- The shifted exponentials, -/
def expo (a : Logits) (k : Fin 3) : EReal := Ideal.exp (a (ix1 k) - amax a)
/-- their total, -/
def total (a : Logits) : EReal := ∑ k : Fin 3, expo a k
/-- and the softmax weights. -/
def weight (a : Logits) (k : Fin 3) : EReal := Ideal.div (expo a k) (total a)

/-- The three feature matrices that are summed: x, one round, two rounds. -/
def stack (HS : Mat 10000 2048) (HT : Mat 2048 10000) (x : Mat 10000 128) : Fin 3 → Mat 10000 128
  | 0 => x
  | 1 => layer HS HT x
  | 2 => layer HS HT (layer HS HT x)

/-- The weighted sum with the two copies of the first round's features grouped. -/
def groupedSum (HS : Mat 10000 2048) (HT : Mat 2048 10000) (x : Mat 10000 128) (a : Logits) : Mat 10000 128 := fun i =>
  weight a 0 * x i + (weight a 1 + weight a 2) * layer HS HT x i + weight a 2 * max (msg HS HT (layer HS HT x) i) 0

/-- The grouped sum over a product already formed: w₀·x₀ + (w₁ + w₂)·x₁ + w₂·max (HS · T) 0. -/
def combine (HS : Mat 10000 2048) (T : Mat 2048 128) (x1 x0 : Mat 10000 128) (a : Logits) : Mat 10000 128 := fun i =>
  weight a 0 * x0 i + (weight a 1 + weight a 2) * x1 i + weight a 2 * max (mm HS T i) 0

theorem groupedSum_eq (HS : Mat 10000 2048) (HT : Mat 2048 10000) (x : Mat 10000 128) (a : Logits) :
    groupedSum HS HT x a = combine HS (mm HT (layer HS HT x)) (layer HS HT x) x a := rfl

/-- The weighted sum layer by layer, from zero. -/
def plainSum (HS : Mat 10000 2048) (HT : Mat 2048 10000) (x : Mat 10000 128) (a : Logits) : Mat 10000 128 := fun i =>
  0 + ∑ l : Fin 3, stack HS HT x l i * weight a l

/-! ## Reals among the extended reals -/

/-- A product of matrices with real entries has real entries. -/
theorem mm_real {a K b : Nat} (A : Mat a K) (B : Mat K b) (hA : ∀ i, IsReal (A i)) (hB : ∀ i, IsReal (B i))
    (j : (⟨2, ![a, b]⟩ : Shape).Idx) : IsReal (mm A B j) :=
  IsReal.sum _ _ fun k _ => (hA _).mul (hB _)

theorem msg_real (HS : Mat 10000 2048) (HT : Mat 2048 10000) (x : Mat 10000 128)
    (hS : ∀ i, IsReal (HS i)) (hT : ∀ i, IsReal (HT i)) (hx : ∀ i, IsReal (x i)) (i) : IsReal (msg HS HT x i) :=
  mm_real _ _ hS (mm_real _ _ hT hx) i

theorem layer_real (HS : Mat 10000 2048) (HT : Mat 2048 10000) (x : Mat 10000 128)
    (hS : ∀ i, IsReal (HS i)) (hT : ∀ i, IsReal (HT i)) (hx : ∀ i, IsReal (x i)) (i) : IsReal (layer HS HT x i) :=
  ((msg_real HS HT x hS hT hx i).max isReal_zero).add (hx i)

theorem amax_real (a : Logits) (ha : ∀ i, IsReal (a i)) : IsReal (amax a) := by
  rcases fold_max_attained (Finset.univ : Finset (Fin 3)) (fun k => a (ix1 k)) with h | ⟨k, -, h⟩
  · exact absurd h (Finset.univ_nonempty).ne_empty
  · unfold amax; rw [h]; exact ha _

/-- A shifted exponential is a positive real. -/
theorem expo_pos (a : Logits) (ha : ∀ i, IsReal (a i)) (k : Fin 3) : ∃ r : ℝ, 0 < r ∧ expo a k = (r : EReal) := by
  obtain ⟨d, hd⟩ := (ha (ix1 k)).sub (amax_real a ha)
  exact ⟨Real.exp d, Real.exp_pos d, by unfold expo; rw [hd]; rfl⟩

theorem total_pos (a : Logits) (ha : ∀ i, IsReal (a i)) : ∃ r : ℝ, 0 < r ∧ total a = (r : EReal) := by
  obtain ⟨e0, p0, h0⟩ := expo_pos a ha 0
  obtain ⟨e1, p1, h1⟩ := expo_pos a ha 1
  obtain ⟨e2, p2, h2⟩ := expo_pos a ha 2
  refine ⟨e0 + e1 + e2, by positivity, ?_⟩
  unfold total
  rw [Fin.sum_univ_three, h0, h1, h2, EReal.coe_add, EReal.coe_add]

theorem weight_real (a : Logits) (ha : ∀ i, IsReal (a i)) (k : Fin 3) : IsReal (weight a k) := by
  obtain ⟨z, pz, hz⟩ := total_pos a ha
  obtain ⟨e, -, he⟩ := expo_pos a ha k
  unfold weight
  rw [hz, he, Ideal.div_coe (ne_of_gt pz)]
  exact ⟨e * (1 / z), (EReal.coe_mul _ _).symm⟩

/-! ## The two arrangements agree on reals -/

theorem groupedSum_eq_plainSum (HS : Mat 10000 2048) (HT : Mat 2048 10000) (x : Mat 10000 128) (a : Logits)
    (hS : ∀ i, IsReal (HS i)) (hT : ∀ i, IsReal (HT i)) (hx : ∀ i, IsReal (x i)) (ha : ∀ i, IsReal (a i)) :
    groupedSum HS HT x a = plainSum HS HT x a := by
  funext i
  obtain ⟨w0, hw0⟩ := weight_real a ha 0
  obtain ⟨w1, hw1⟩ := weight_real a ha 1
  obtain ⟨w2, hw2⟩ := weight_real a ha 2
  obtain ⟨x0, hx0⟩ := hx i
  have hx1' := layer_real HS HT x hS hT hx
  obtain ⟨x1, hx1⟩ := hx1' i
  obtain ⟨r, hr⟩ := (msg_real HS HT (layer HS HT x) hS hT hx1' i).max isReal_zero
  have h2 : stack HS HT x 2 i = max (msg HS HT (layer HS HT x) i) 0 + layer HS HT x i := rfl
  have h1 : stack HS HT x 1 i = layer HS HT x i := rfl
  have h0 : stack HS HT x 0 i = x i := rfl
  unfold groupedSum plainSum
  rw [Fin.sum_univ_three, h0, h1, h2, hw0, hw1, hw2, hx0, hx1, hr]
  simp only [← EReal.coe_mul, ← EReal.coe_add, zero_add]
  congr 1
  ring

end Cert.HyperConv

end
-- ==== Proof.RunNamed.lean ====
/-
  The idealized kernel's run with its result array named.

  Every weakly fair execution of the program — a reshape of the logits on the host, then the four matrix-product
  stages one after the other — terminates without a fault; the four argument arrays end as they were launched, and the
  result array ends holding what the last stage's write-backs leave in it: the contents of its buffer at the boundary
  after the fourth stage. That boundary's contents are the fold, stage by stage, of "the stage's output array becomes
  what its blocks wrote, every other array stays", starting from the launch memory.
-/
import proofs.«136136_g26070451486833_cont_8to1_1708_3_alg».proof.Proof.Gen.KernelIdeal.Frame

set_option maxRecDepth 16384

noncomputable section

namespace Cert.HyperConv.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: it terminates, nothing faults, the result array is the last boundary's contents of its buffer, and the
    arguments are unchanged. -/
theorem run_named : θ_run defs (onTc (τ := τ) (main (F := F))) ⟨m, fun _ => 0, ρ⟩ (fun r => ∀ c : Dev nD,
      r.2.mem ((c.tc : Thread nD τ).loc main_v4) = W5 m ρ c (Proc.devRef .tc main_v4)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v4 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c)⟩)

end Cert.HyperConv.Run

end
-- ==== Proof.LibMatmul.lean ====
/-
  A rank-2 matrix product read at an index, at the exact extended reals: when the dimension numbers contract the
  left operand's column axis with the right operand's row axis and keep the other two axes in order, the product
  accumulated into zeros is, at row `p` and column `q`, the sum over `k` of `lhs (p, k) · rhs (k, q)` — a sum over
  the contracted extent itself, not over the contraction's own index type.
-/
import Idealize.ShloMosaic.PureOps.Ideal.Laws
import Idealize.ShloMosaic.Lib.ValueIdx

noncomputable section

namespace Cert.LibMatmul

open Idealize.ShloMosaic Idealize.ShloMosaic.ValueIdx

/-- A product `[a, K] × [K, b] → [a, b]` into a zero accumulator, at an output index `j`: the four coordinate facts
    say which operand entries the dimension numbers pair at the contraction index (the left one at `(j 0, k)`, the
    right one at `(k, j 1)`); the contraction has one axis, of extent `K`, and the sum is re-indexed along it. -/
theorem matmul_zero_ix2 {a K b : Nat} {φ₁ φ₂ : FTy}
    (d : DotDims ⟨2, ![a, K]⟩ ⟨2, ![K, b]⟩ ⟨2, ![a, b]⟩) (prec : Option ContractPrecision)
    (hr : d.contr.rank = 1) (hs : d.contr.size ⟨0, by omega⟩ = K)
    (hl0 : ∀ j q, (d.lhsIdx j q 0).val = (j 0).val)
    (hl1 : ∀ j q, (d.lhsIdx j q 1).val = (q ⟨0, by omega⟩).val)
    (hr0 : ∀ j q, (d.rhsIdx j q 0).val = (q ⟨0, by omega⟩).val)
    (hr1 : ∀ j q, (d.rhsIdx j q 1).val = (j 1).val)
    (lhs : FVec Ideal ⟨2, ![a, K]⟩ φ₁) (rhs : FVec Ideal ⟨2, ![K, b]⟩ φ₂) (j : (⟨2, ![a, b]⟩ : Shape).Idx) :
    FloatOps.matmul d prec lhs rhs (constant ⟨2, ![a, b]⟩ .f32 0x00000000#32) j
      = ∑ k : Fin K, lhs (ix2 (j 0) k) * rhs (ix2 k (j 1)) := by
  rw [Ideal.matmul_constant_zero_apply, ← Equiv.sum_comp (contrEquiv1 d K hr hs).symm]
  refine Finset.sum_congr rfl fun k _ => ?_
  have hk := contrEquiv1_symm_val d K hr hs k
  have el : d.lhsIdx j ((contrEquiv1 d K hr hs).symm k) = ix2 (j 0) k := funext fun x => Fin.ext (by
    match x with
    | ⟨0, _⟩ => exact hl0 _ _
    | ⟨1, _⟩ => exact (hl1 _ _).trans hk)
  have er : d.rhsIdx j ((contrEquiv1 d K hr hs).symm k) = ix2 k (j 1) := funext fun x => Fin.ext (by
    match x with
    | ⟨0, _⟩ => exact (hr0 _ _).trans hk
    | ⟨1, _⟩ => exact hr1 _ _)
  rw [el, er]
  rfl

end Cert.LibMatmul

end
-- ==== Proof.LibRowMax.lean ====
/-
  A maximum along one axis, read at an index of the result, on the extended reals.

  The vector unit's maximum along the last axis of a matrix [a, b], read at row p, is the fold of `max` from the
  accumulator's value over the row's entries (p, k), k : Fin b. The host's reduce by maximum over one axis is the same
  fold from its initial value's one element over that axis's coordinates. A fold of `max` is at least the value it
  starts from, so taking the maximum with that value once more changes nothing.
-/
import Idealize.ShloMosaic.PureOps.Ideal.Laws
import Idealize.ShloMosaic.Lib.ValueIdx

noncomputable section

namespace Cert.LibRowMax

open Idealize.ShloMosaic Idealize.ShloMosaic.ValueIdx

/-- Over row p of an [a, b] matrix, the source index with coordinate k on axis 1 is (p, k). -/
theorem lift_row {a b : ℕ} (h : (⟨2, ![a, b]⟩ : Shape).Reduces [1] ⟨1, ![a]⟩) (p : Fin a) (k : Fin b) :
    h.lift (ix1 p) k = ix2 p k := by
  funext c
  match c with
  | ⟨0, _⟩ => exact Fin.ext rfl
  | ⟨1, _⟩ => exact Fin.ext rfl

/-- The vector unit's maximum along the rows of an [a, b] matrix, at row p: the fold of `max` from the accumulator's
    value over the row's entries. -/
theorem multiReduction_maximumf_row {φ : FTy} {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (p : Fin a) :
    multiReduction .maximumf [1] ⟨1, ![a]⟩ src acc h hφ hacc (ix1 p)
      = (Finset.univ : Finset (Fin b)).fold max (Ideal.ofBits φ acc) (fun k => src (ix2 p k)) :=
  (Ideal.multiReduction_maximumf_single src acc h hφ hacc (ix1 p)).trans
    (congrArg ((Finset.univ : Finset (Fin b)).fold max (Ideal.ofBits φ acc)) (funext fun k => congrArg src (lift_row h p k)))

/-- The host's reduce by maximum over one axis, at a result index j: the fold of `max` from the initial value's one
    element over that axis's coordinates put back into j. -/
theorem hostReduce_maximumf_single {φ : FTy} {s t u : Shape} {a : Fin s.rank} (x : FVec Ideal s φ) (init : FVec Ideal u φ)
    (h' : s.ReducesTo [a] t) (h : s.Reduces [a] t) (hu : 0 < u.numel) (j : t.Idx) :
    Host.reduce (FloatOps.maximumf (F := Ideal) (φ := φ)) x init h' hu j
      = (Finset.univ : Finset (Fin (s.size a))).fold max (init (Shape.Idx.first hu)) (x ∘ h.lift j) :=
  Host.reduce_eq_fold_single _ x init h' h hu j

/-- A fold of `max` that starts from b is at least b: the maximum of b and the fold is the fold. -/
theorem max_fold_max_self {ι : Type} (s : Finset ι) (b : EReal) (f : ι → EReal) :
    max b (s.fold max b f) = s.fold max b f :=
  max_eq_right ((Finset.le_fold_max b).2 (Or.inl le_rfl))

end Cert.LibRowMax

end
-- ==== Proof.Payload.lean ====
/-
  What each kernel body computes from the blocks it loads, entry by entry, on the extended reals.

  The two hyperedge-side bodies multiply a band of 256 rows of the incidence matrix HT with the whole feature matrix: the
  entry (p, q) of the result is the sum over k of band (p, k) · x (k, q). The first node-side body multiplies a band of
  1000 rows of HS with the whole hyperedge matrix, clips at zero and adds the band of the previous features. The last
  node-side body forms the three softmax weights from the logits it is handed as a 1 × 3 row, and returns
  w₀·x₀ + (w₁ + w₂)·x₁ + w₂·max (band of HS · t) 0 on the bands of x₀ and x₁. A change of number format is the identity
  on the extended reals, and a reshape to the same shape moves nothing.
-/
import proofs.«136136_g26070451486833_cont_8to1_1708_3_alg».proof.Proof.Gen.KernelIdeal.Skeleton
import proofs.«136136_g26070451486833_cont_8to1_1708_3_alg».proof.Proof.LibMatmul
import proofs.«136136_g26070451486833_cont_8to1_1708_3_alg».proof.Proof.LibMatProd
import proofs.«136136_g26070451486833_cont_8to1_1708_3_alg».proof.Proof.LibRowMax
import proofs.«136136_g26070451486833_cont_8to1_1708_3_alg».proof.Proof.Spec
import Idealize.ShloMosaic.Lib.Pipeline.Value
import Idealize.ShloMosaic.Lib.ValueLayout

noncomputable section

namespace Cert.HyperConv.Payload

open Cert.KernelIdeal Cert.KernelIdeal.Gen Idealize.ShloMosaic Idealize.ShloMosaic.ValueIdx Cert.LibMatProd Cert.HyperConv Cert.LibReals

/-! ## Which operand entries the two products pair -/

theorem tar_l0 (j : S256x128.Idx) (q : dot_S256x10000_S10000x128_S256x128_1_0_0_1_n_n.contr.Idx) : (dot_S256x10000_S10000x128_S256x128_1_0_0_1_n_n.lhsIdx j q 0).val = (j 0).val := by
  unfold DotDims.lhsIdx
  rw [dif_neg (show ¬(0 : Fin S256x10000.rank) ∈ dot_S256x10000_S10000x128_S256x128_1_0_0_1_n_n.lhsBatch by decide), dif_pos (show (0 : Fin S256x10000.rank) ∈ dot_S256x10000_S10000x128_S256x128_1_0_0_1_n_n.lhsNonContracting by decide)]
  rfl
theorem tar_l1 (j : S256x128.Idx) (q : dot_S256x10000_S10000x128_S256x128_1_0_0_1_n_n.contr.Idx) : (dot_S256x10000_S10000x128_S256x128_1_0_0_1_n_n.lhsIdx j q 1).val = (q ⟨0, by decide⟩).val :=
  dot_S256x10000_S10000x128_S256x128_1_0_0_1_n_n.lhsIdx_val_of_single rfl j q
theorem tar_r0 (j : S256x128.Idx) (q : dot_S256x10000_S10000x128_S256x128_1_0_0_1_n_n.contr.Idx) : (dot_S256x10000_S10000x128_S256x128_1_0_0_1_n_n.rhsIdx j q 0).val = (q ⟨0, by decide⟩).val :=
  dot_S256x10000_S10000x128_S256x128_1_0_0_1_n_n.rhsIdx_val_of_single rfl j q
theorem tar_r1 (j : S256x128.Idx) (q : dot_S256x10000_S10000x128_S256x128_1_0_0_1_n_n.contr.Idx) : (dot_S256x10000_S10000x128_S256x128_1_0_0_1_n_n.rhsIdx j q 1).val = (j 1).val := by
  unfold DotDims.rhsIdx
  rw [dif_neg (show ¬(1 : Fin S10000x128.rank) ∈ dot_S256x10000_S10000x128_S256x128_1_0_0_1_n_n.rhsBatch by decide), dif_pos (show (1 : Fin S10000x128.rank) ∈ dot_S256x10000_S10000x128_S256x128_1_0_0_1_n_n.rhsNonContracting by decide)]
  rfl

theorem src_l0 (j : S1000x128.Idx) (q : dot_S1000x2048_S2048x128_S1000x128_1_0_0_1_n_n.contr.Idx) : (dot_S1000x2048_S2048x128_S1000x128_1_0_0_1_n_n.lhsIdx j q 0).val = (j 0).val := by
  unfold DotDims.lhsIdx
  rw [dif_neg (show ¬(0 : Fin S1000x2048.rank) ∈ dot_S1000x2048_S2048x128_S1000x128_1_0_0_1_n_n.lhsBatch by decide), dif_pos (show (0 : Fin S1000x2048.rank) ∈ dot_S1000x2048_S2048x128_S1000x128_1_0_0_1_n_n.lhsNonContracting by decide)]
  rfl
theorem src_l1 (j : S1000x128.Idx) (q : dot_S1000x2048_S2048x128_S1000x128_1_0_0_1_n_n.contr.Idx) : (dot_S1000x2048_S2048x128_S1000x128_1_0_0_1_n_n.lhsIdx j q 1).val = (q ⟨0, by decide⟩).val :=
  dot_S1000x2048_S2048x128_S1000x128_1_0_0_1_n_n.lhsIdx_val_of_single rfl j q
theorem src_r0 (j : S1000x128.Idx) (q : dot_S1000x2048_S2048x128_S1000x128_1_0_0_1_n_n.contr.Idx) : (dot_S1000x2048_S2048x128_S1000x128_1_0_0_1_n_n.rhsIdx j q 0).val = (q ⟨0, by decide⟩).val :=
  dot_S1000x2048_S2048x128_S1000x128_1_0_0_1_n_n.rhsIdx_val_of_single rfl j q
theorem src_r1 (j : S1000x128.Idx) (q : dot_S1000x2048_S2048x128_S1000x128_1_0_0_1_n_n.contr.Idx) : (dot_S1000x2048_S2048x128_S1000x128_1_0_0_1_n_n.rhsIdx j q 1).val = (j 1).val := by
  unfold DotDims.rhsIdx
  rw [dif_neg (show ¬(1 : Fin S2048x128.rank) ∈ dot_S1000x2048_S2048x128_S1000x128_1_0_0_1_n_n.rhsBatch by decide), dif_pos (show (1 : Fin S2048x128.rank) ∈ dot_S1000x2048_S2048x128_S1000x128_1_0_0_1_n_n.rhsNonContracting by decide)]
  rfl

/-- A band of 256 rows of HT times the features, into zeros, at an entry. -/
theorem tar_matmul_apply (b : FVec Ideal S256x10000 .bf16) (x : FVec Ideal S10000x128 .bf16) (j : S256x128.Idx) :
    matmul dot_S256x10000_S10000x128_S256x128_1_0_0_1_n_n none b x (constant S256x128 .f32 0x00000000#32) j = mm b x j :=
  Cert.LibMatmul.matmul_zero_ix2 dot_S256x10000_S10000x128_S256x128_1_0_0_1_n_n none rfl rfl tar_l0 tar_l1 tar_r0 tar_r1 b x j

/-- A band of 1000 rows of HS times the hyperedge matrix, into zeros, at an entry. -/
theorem src_matmul_apply (b : FVec Ideal S1000x2048 .bf16) (x : FVec Ideal S2048x128 .bf16) (j : S1000x128.Idx) :
    matmul dot_S1000x2048_S2048x128_S1000x128_1_0_0_1_n_n none b x (constant S1000x128 .f32 0x00000000#32) j = mm b x j :=
  Cert.LibMatmul.matmul_zero_ix2 dot_S1000x2048_S2048x128_S1000x128_1_0_0_1_n_n none rfl rfl src_l0 src_l1 src_r0 src_r1 b x j

/-- The first hyperedge-side body: the band's product with the features. -/
theorem pay0_apply (b : Vec Ideal S256x10000 .f32) (x : Vec Ideal S10000x128 .f32) (j : S256x128.Idx) :
    k0_pay1 b x j = mm b x j := by
  unfold k0_pay1
  exact tar_matmul_apply _ _ j

/-- The second hyperedge-side body: the same product (its reshape of the features keeps the shape). -/
theorem pay2_apply (b : Vec Ideal S256x10000 .f32) (x : Vec Ideal S10000x128 .f32) (j : S256x128.Idx) :
    k2_pay1 b x j = mm b x j := by
  unfold k2_pay1
  refine (tar_matmul_apply _ _ j).trans ?_
  rw [shapeCast_self]
  rfl

/-- The first node-side body: the band's product with the hyperedge matrix, clipped at zero, plus the band of features. -/
theorem pay1_apply (b : Vec Ideal S1000x2048 .f32) (h : Vec Ideal S2048x128 .f32) (x : Vec Ideal S1000x128 .f32) (j : S1000x128.Idx) :
    k1_pay1 b h x j = max (mm b h j) 0 + x j := by
  unfold k1_pay1
  show max (matmul dot_S1000x2048_S2048x128_S1000x128_1_0_0_1_n_n none _ _ (constant S1000x128 .f32 0x00000000#32) j) (Ideal.ofBits .f32 0x00000000#32) + x j = _
  rw [src_matmul_apply, Ideal.ofBits_zero_f32, shapeCast_self]
  rfl

/-! ## The last node-side body -/

/-- The logits handed over as a 1 × 3 row, as a vector of three. -/
def logitsOf (r : Vec Ideal S1x3 .f32) : Logits := shapeCast S3 r shapeCasts_S1x3_S3

theorem idx_one (i : (⟨1, ![1]⟩ : Shape).Idx) : i = ix1 0 := by
  rw [eq_ix1 i]; exact congrArg ix1 (Fin.ext (by have h : (i 0).val < 1 := (i 0).isLt; show (i 0).val = 0; omega))

/-- The one entry of a 1 × 1 array made from a one-entry vector. -/
theorem one_entry {α : Type} (v : S1.Idx → α) : extractAt ![0, 0] (shapeCast S1x1 v shapeCasts_S1_S1x1) inpos_S1x1_p0_0 = v (ix1 0) :=
  congrArg v (idx_one _)

/-- The maximum the body takes over the row of logits is the largest logit. -/
theorem max_scalar (a : FVec Ideal S3 .f32) :
    extractAt ![0, 0] (shapeCast S1x1 (multiReduction .maximumf [1] S1 (shapeCast S1x3 a shapeCasts_S3_S1x3) 0xFF800000#32 reduces_S1x3_S1 (.inl rfl) rfl) shapeCasts_S1_S1x1) inpos_S1x1_p0_0
      = amax a := by
  refine (one_entry _).trans ?_
  refine (Cert.LibRowMax.multiReduction_maximumf_row _ _ reduces_S1x3_S1 _ _ 0).trans ?_
  unfold amax
  rw [ofBits_neg_inf]
  exact congrArg (fun f => Finset.fold max ⊥ f Finset.univ) (funext fun k => shapeCast_a_1a_apply a _ 0 k)

/-- The sum the body takes over a row of three is the sum of the three. -/
theorem sum_scalar (e : FVec Ideal S3 .f32) :
    extractAt ![0, 0] (shapeCast S1x1 (multiReduction .add [1] S1 (shapeCast S1x3 e shapeCasts_S3_S1x3) 0x00000000#32 reduces_S1x3_S1 (.inl rfl) rfl) shapeCasts_S1_S1x1) inpos_S1x1_p0_0
      = ∑ k : Fin 3, e (ix1 k) := by
  refine (one_entry _).trans ?_
  refine (Ideal.multiReduction_add_single _ _ reduces_S1x3_S1 _ _ (ix1 0)).trans ?_
  show ∑ k : Fin 3, _ = _
  refine Finset.sum_congr rfl fun k _ => ?_
  rw [Cert.LibRowMax.lift_row]
  exact shapeCast_a_1a_apply e _ 0 k

theorem slice0 {α : Type} (v : S3.Idx → α) : extractAt ![0] (extractStridedSlice S1 ![0] v slices_S3_o0_S1) inpos_S1_p0 = v (ix1 0) :=
  congrArg v (funext fun d => Fin.ext (by match d with | ⟨0, _⟩ => rfl))
theorem slice1 {α : Type} (v : S3.Idx → α) : extractAt ![0] (extractStridedSlice S1 ![1] v slices_S3_o1_S1) inpos_S1_p0 = v (ix1 1) :=
  congrArg v (funext fun d => Fin.ext (by match d with | ⟨0, _⟩ => rfl))
theorem slice2 {α : Type} (v : S3.Idx → α) : extractAt ![0] (extractStridedSlice S1 ![2] v slices_S3_o2_S1) inpos_S1_p0 = v (ix1 2) :=
  congrArg v (funext fun d => Fin.ext (by match d with | ⟨0, _⟩ => rfl))

/-- The last node-side body: the three softmax weights of the logits, then w₀·x₀ + (w₁ + w₂)·x₁ + w₂·max (band · t) 0. -/
theorem pay3_apply (r : Vec Ideal S1x3 .f32) (b : Vec Ideal S1000x2048 .f32) (h : Vec Ideal S2048x128 .f32)
    (x0 x1 : Vec Ideal S1000x128 .f32) (j : S1000x128.Idx) :
    k3_pay1 r b h x0 x1 j
      = weight (logitsOf r) 0 * x0 j + (weight (logitsOf r) 1 + weight (logitsOf r) 2) * x1 j
        + weight (logitsOf r) 2 * max (mm b h j) 0 := by
  unfold k3_pay1
  rw [max_scalar, sum_scalar, slice0, slice1, slice2]
  rw [shapeCast_self x1, shapeCast_self h]
  show _ + _ * max (matmul dot_S1000x2048_S2048x128_S1000x128_1_0_0_1_n_n none _ _ (constant S1000x128 .f32 0x00000000#32) j) (Ideal.ofBits .f32 0x00000000#32) = _
  rw [src_matmul_apply, Ideal.ofBits_zero_f32]
  rfl

end Cert.HyperConv.Payload

end
-- ==== Proof.Stage0.lean ====
/-
  The first hyperedge-side stage, from blocks to the whole array.

  The stage runs over eight grid points; at point t it loads band t (256 rows) of the incidence matrix HT and the whole
  feature matrix x, and writes band t of its output. Band t of the product HT · x is the product of band t of HT with x,
  so every point writes back its band of ONE matrix, HT · x; the eight bands cover the 2048 rows, so after the stage
  the output array is HT · x.
-/
import proofs.«136136_g26070451486833_cont_8to1_1708_3_alg».proof.Proof.Gen.KernelIdeal.Frame
import proofs.«136136_g26070451486833_cont_8to1_1708_3_alg».proof.Proof.Payload

set_option maxRecDepth 16384

noncomputable section

namespace Cert.HyperConv.Stage0

open Cert.KernelIdeal Cert.KernelIdeal.Gen Idealize.ShloMosaic Idealize.ShloMosaic.TcCoe Idealize.SL.Sem
open Idealize.ShloMosaic.ValueIdx Cert.LibMatProd Cert.HyperConv Cert.HyperConv.Payload
open Idealize.ShloMosaic.Pipeline (Dat)

-- the arrays as the stage finds them
variable (V : (c : Dev nD) → (b : Ref sig .tc) → Buf (Elt Ideal) ((c : Thread nD τ).loc b))

theorem zero_offsets : (![0, 0] : Fin 2 → Nat) = fun _ => 0 := funext fun a => by fin_cases a <;> rfl

/-- Where each window's block sits at grid point t: the band of HT and the output band are band t; the features are whole. -/
theorem block_indices : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point t writes back is band t of the whole product HT · x. -/
theorem flushed_eq (c : Dev nD) (t : Fin cfg0.N) :
    (dat0 V c).flushed 2 t = ((cfg0.win 2).blk t).view.read (Elt Ideal)
      (mm (a := 2048) (K := 10000) (b := 128) (V c main_arg2) (V c main_arg0)) := by
  show (cfg0.win 2).cut (grid0.coords t) ((dat0 V c).after 2 t) = _
  rw [after0_2]
  unfold out0_2
  rw [View.canon_unit_zero zero_offsets]
  simp only [View.ld_unit_zero (S := S256x10000) zero_offsets, View.ld_unit_zero (S := S10000x128) zero_offsets]
  obtain ⟨e0, e1, e2, e3, e4, e5⟩ := block_indices t
  funext y
  show k0_pay1 (iblk0 V c 0 t) (iblk0 V c 1 t) y
    = mm (a := 2048) (K := 10000) (b := 128) (V c main_arg2) (V c main_arg0) (((cfg0.win 2).blk t).view.emb y)
  rw [pay0_apply]
  have hy0 : (y 0).val < 256 := (y 0).isLt
  have hy1 : (y 1).val < 128 := (y 1).isLt
  refine mm_entry_congr _ _ _ _ y _ (fun k => ?_) (fun k => ?_)
  · show V c main_arg2 (((cfg0.win 0).blk t).view.emb (ix2 (y 0) k)) = V c main_arg2 (ix2 ((((cfg0.win 2).blk t).view.emb y) 0) k)
    refine congrArg (V c main_arg2) (funext fun a => Fin.ext ?_)
    match a with
    | ⟨0, _⟩ => show win0_0.index t (0 : Fin 2) * 256 + 1 * (y 0).val = win0_2.index t (0 : Fin 2) * 256 + 1 * (y 0).val; omega
    | ⟨1, _⟩ => show win0_0.index t (1 : Fin 2) * 10000 + 1 * k.val = k.val; omega
  · show V c main_arg0 (((cfg0.win 1).blk t).view.emb (ix2 k (y 1))) = V c main_arg0 (ix2 k ((((cfg0.win 2).blk t).view.emb y) 1))
    refine congrArg (V c main_arg0) (funext fun a => Fin.ext ?_)
    match a with
    | ⟨0, _⟩ => show win0_1.index t (0 : Fin 2) * 10000 + 1 * k.val = k.val; omega
    | ⟨1, _⟩ => show win0_1.index t (1 : Fin 2) * 128 + 1 * (y 1).val = win0_2.index t (1 : Fin 2) * 128 + 1 * (y 1).val; omega

/-- An entry of the output array is in point t's block iff its row is in band t. -/
theorem mem_blk (t : Fin cfg0.N) (i : S2048x128.Idx) :
    i ∈ ((cfg0.win 2).blk t).view.set ↔ ∀ a : Fin 2, win0_2.index t a * S256x128.size a ≤ (i a).val ∧ (i a).val < win0_2.index t a * S256x128.size a + S256x128.size a := by
  show i ∈ ((View.whole main_v1).slice (win0_2.rect t)).set ↔ _
  rw [View.set_slice_whole, Rect.mem_set_unit]
  exact Iff.rfl

/-- The eight bands of 256 rows cover the 2048 rows: row r is in band r / 256. -/
theorem cover (i : S2048x128.Idx) : ∃ t : Fin cfg0.N, (cfg0.win 2).flush t = true ∧ i ∈ ((cfg0.win 2).blk t).view.set := by
  have hi0 : (i 0).val < 2048 := (i 0).isLt
  have hi1 : (i 1).val < 128 := (i 1).isLt
  have hlt : (i 0).val / 256 < 8 := by omega
  refine ⟨⟨(i 0).val / 256, hlt⟩, flush0_2 _, ?_⟩
  rw [mem_blk]
  obtain ⟨-, -, -, -, e4, e5⟩ := block_indices ⟨(i 0).val / 256, hlt⟩
  have e4' : win0_2.index ⟨(i 0).val / 256, hlt⟩ (0 : Fin 2) = (i 0).val / 256 := e4
  intro a
  match a with
  | ⟨0, _⟩ => show win0_2.index ⟨(i 0).val / 256, hlt⟩ (0 : Fin 2) * 256 ≤ (i 0).val ∧ (i 0).val < win0_2.index ⟨(i 0).val / 256, hlt⟩ (0 : Fin 2) * 256 + 256; omega
  | ⟨1, _⟩ => show win0_2.index ⟨(i 0).val / 256, hlt⟩ (1 : Fin 2) * 128 ≤ (i 1).val ∧ (i 1).val < win0_2.index ⟨(i 0).val / 256, hlt⟩ (1 : Fin 2) * 128 + 128; omega

/-- After the stage its output array holds the whole product HT · x of the arrays it found. -/
theorem final (c : Dev nD) : (dat0 V c).arrAt 2 cfg0.N = mm (a := 2048) (K := 10000) (b := 128) (V c main_arg2) (V c main_arg0) :=
  (dat0 V c).arrAt_eq_of_cover 2 _ (fun t _ => flushed_eq V c t) cover

end Cert.HyperConv.Stage0

end
-- ==== Proof.Stage1.lean ====
/-
  The first node-side stage, from blocks to the whole array.

  Ten grid points; at point t the stage loads band t (1000 rows) of the incidence matrix HS, the whole hyperedge matrix
  T, and band t of the features x, and writes band t of max (HS · T) 0 + x. Band t of HS · T is the product of band t of
  HS with T, and the clip and the add act entry by entry, so every point writes back its band of ONE matrix; the ten
  bands cover the 10000 rows.
-/
import proofs.«136136_g26070451486833_cont_8to1_1708_3_alg».proof.Proof.Gen.KernelIdeal.Frame
import proofs.«136136_g26070451486833_cont_8to1_1708_3_alg».proof.Proof.Payload

set_option maxRecDepth 16384

noncomputable section

namespace Cert.HyperConv.Stage1

open Cert.KernelIdeal Cert.KernelIdeal.Gen Idealize.ShloMosaic Idealize.ShloMosaic.TcCoe Idealize.SL.Sem
open Idealize.ShloMosaic.ValueIdx Cert.LibMatProd Cert.HyperConv Cert.HyperConv.Payload
open Idealize.ShloMosaic.Pipeline (Dat)

-- the arrays as the stage finds them
variable (V : (c : Dev nD) → (b : Ref sig .tc) → Buf (Elt Ideal) ((c : Thread nD τ).loc b))

theorem zero_offsets : (![0, 0] : Fin 2 → Nat) = fun _ => 0 := funext fun a => by fin_cases a <;> rfl

/-- Where each window's block sits at grid point t. -/
theorem in_indices : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)
theorem out_indices : ∀ t : Fin cfg1.N, win1_3.index t (0 : Fin 2) = t.val ∧ win1_3.index t (1 : Fin 2) = 0 :=
  (by decide +kernel : ∀ t : Fin grid1.N, _)

/-- What point t writes back is band t of max (HS · T) 0 + x. -/
theorem flushed_eq (c : Dev nD) (t : Fin cfg1.N) :
    (dat1 V c).flushed 3 t = ((cfg1.win 3).blk t).view.read (Elt Ideal)
      (reluAdd (V c main_arg1) (V c main_v1) (V c main_arg0)) := by
  show (cfg1.win 3).cut (grid1.coords t) ((dat1 V c).after 3 t) = _
  rw [after1_3]
  unfold out1_3
  rw [View.canon_unit_zero zero_offsets]
  simp only [View.ld_unit_zero (S := S1000x2048) zero_offsets, View.ld_unit_zero (S := S2048x128) zero_offsets,
    View.ld_unit_zero (S := S1000x128) zero_offsets]
  obtain ⟨e0, e1, e2, e3, e4, e5⟩ := in_indices t
  obtain ⟨o0, o1⟩ := out_indices t
  funext y
  show k1_pay1 (iblk1 V c 0 t) (iblk1 V c 1 t) (iblk1 V c 2 t) y
    = reluAdd (V c main_arg1) (V c main_v1) (V c main_arg0) (((cfg1.win 3).blk t).view.emb y)
  rw [pay1_apply]
  have hy0 : (y 0).val < 1000 := (y 0).isLt
  have hy1 : (y 1).val < 128 := (y 1).isLt
  unfold reluAdd
  refine congrArg₂ (· + ·) (congrArg (fun s => max s (0 : EReal)) (mm_entry_congr _ _ _ _ y _ (fun k => ?_) (fun k => ?_))) ?_
  · show V c main_arg1 (((cfg1.win 0).blk t).view.emb (ix2 (y 0) k)) = V c main_arg1 (ix2 ((((cfg1.win 3).blk t).view.emb y) 0) k)
    refine congrArg (V c main_arg1) (funext fun a => Fin.ext ?_)
    match a with
    | ⟨0, _⟩ => show win1_0.index t (0 : Fin 2) * 1000 + 1 * (y 0).val = win1_3.index t (0 : Fin 2) * 1000 + 1 * (y 0).val; omega
    | ⟨1, _⟩ => show win1_0.index t (1 : Fin 2) * 2048 + 1 * k.val = k.val; omega
  · show V c main_v1 (((cfg1.win 1).blk t).view.emb (ix2 k (y 1))) = V c main_v1 (ix2 k ((((cfg1.win 3).blk t).view.emb y) 1))
    refine congrArg (V c main_v1) (funext fun a => Fin.ext ?_)
    match a with
    | ⟨0, _⟩ => show win1_1.index t (0 : Fin 2) * 2048 + 1 * k.val = k.val; omega
    | ⟨1, _⟩ => show win1_1.index t (1 : Fin 2) * 128 + 1 * (y 1).val = win1_3.index t (1 : Fin 2) * 128 + 1 * (y 1).val; omega
  · show V c main_arg0 (((cfg1.win 2).blk t).view.emb y) = V c main_arg0 (((cfg1.win 3).blk t).view.emb y)
    refine congrArg (V c main_arg0) (funext fun a => Fin.ext ?_)
    match a with
    | ⟨0, _⟩ => show win1_2.index t (0 : Fin 2) * 1000 + 1 * (y 0).val = win1_3.index t (0 : Fin 2) * 1000 + 1 * (y 0).val; omega
    | ⟨1, _⟩ => show win1_2.index t (1 : Fin 2) * 128 + 1 * (y 1).val = win1_3.index t (1 : Fin 2) * 128 + 1 * (y 1).val; omega

/-- An entry of the output array is in point t's block iff its row is in band t. -/
theorem mem_blk (t : Fin cfg1.N) (i : S10000x128.Idx) :
    i ∈ ((cfg1.win 3).blk t).view.set ↔ ∀ a : Fin 2, win1_3.index t a * S1000x128.size a ≤ (i a).val ∧ (i a).val < win1_3.index t a * S1000x128.size a + S1000x128.size a := by
  show i ∈ ((View.whole main_v2).slice (win1_3.rect t)).set ↔ _
  rw [View.set_slice_whole, Rect.mem_set_unit]
  exact Iff.rfl

/-- The ten bands of 1000 rows cover the 10000 rows: row r is in band r / 1000. -/
theorem cover (i : S10000x128.Idx) : ∃ t : Fin cfg1.N, (cfg1.win 3).flush t = true ∧ i ∈ ((cfg1.win 3).blk t).view.set := by
  have hi0 : (i 0).val < 10000 := (i 0).isLt
  have hi1 : (i 1).val < 128 := (i 1).isLt
  have hlt : (i 0).val / 1000 < 10 := by omega
  refine ⟨⟨(i 0).val / 1000, hlt⟩, flush1_3 _, ?_⟩
  rw [mem_blk]
  have e4 : win1_3.index ⟨(i 0).val / 1000, hlt⟩ (0 : Fin 2) = (i 0).val / 1000 := (out_indices ⟨(i 0).val / 1000, hlt⟩).1
  have e5 : win1_3.index ⟨(i 0).val / 1000, hlt⟩ (1 : Fin 2) = 0 := (out_indices ⟨(i 0).val / 1000, hlt⟩).2
  intro a
  match a with
  | ⟨0, _⟩ => show win1_3.index ⟨(i 0).val / 1000, hlt⟩ (0 : Fin 2) * 1000 ≤ (i 0).val ∧ (i 0).val < win1_3.index ⟨(i 0).val / 1000, hlt⟩ (0 : Fin 2) * 1000 + 1000; omega
  | ⟨1, _⟩ => show win1_3.index ⟨(i 0).val / 1000, hlt⟩ (1 : Fin 2) * 128 ≤ (i 1).val ∧ (i 1).val < win1_3.index ⟨(i 0).val / 1000, hlt⟩ (1 : Fin 2) * 128 + 128; omega

/-- After the stage its output array holds max (HS · T) 0 + x of the arrays it found. -/
theorem final (c : Dev nD) : (dat1 V c).arrAt 3 cfg1.N = reluAdd (V c main_arg1) (V c main_v1) (V c main_arg0) :=
  (dat1 V c).arrAt_eq_of_cover 3 _ (fun t _ => flushed_eq V c t) cover

end Cert.HyperConv.Stage1

end
-- ==== Proof.Stage2.lean ====
/-
  The second hyperedge-side stage, from blocks to the whole array.

  As in the first hyperedge-side stage, the eight grid points each load band t (256 rows) of the incidence matrix HT and
  the whole feature matrix — now the features after one round — and write band t of the output. Band t of HT · x is the
  product of band t of HT with x, so every point writes back its band of ONE matrix, and the eight bands cover the 2048
  rows: after the stage the output array is HT · x.
-/
import proofs.«136136_g26070451486833_cont_8to1_1708_3_alg».proof.Proof.Gen.KernelIdeal.Frame
import proofs.«136136_g26070451486833_cont_8to1_1708_3_alg».proof.Proof.Payload

set_option maxRecDepth 16384

noncomputable section

namespace Cert.HyperConv.Stage2

open Cert.KernelIdeal Cert.KernelIdeal.Gen Idealize.ShloMosaic Idealize.ShloMosaic.TcCoe Idealize.SL.Sem
open Idealize.ShloMosaic.ValueIdx Cert.LibMatProd Cert.HyperConv Cert.HyperConv.Payload
open Idealize.ShloMosaic.Pipeline (Dat)

-- the arrays as the stage finds them
variable (V : (c : Dev nD) → (b : Ref sig .tc) → Buf (Elt Ideal) ((c : Thread nD τ).loc b))

theorem zero_offsets : (![0, 0] : Fin 2 → Nat) = fun _ => 0 := funext fun a => by fin_cases a <;> rfl

/-- Where each window's block sits at grid point t: the band of HT and the output band are band t; the features are whole. -/
theorem block_indices : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What point t writes back is band t of the whole product HT · x. -/
theorem flushed_eq (c : Dev nD) (t : Fin cfg2.N) :
    (dat2 V c).flushed 2 t = ((cfg2.win 2).blk t).view.read (Elt Ideal)
      (mm (a := 2048) (K := 10000) (b := 128) (V c main_arg2) (V c main_v2)) := by
  show (cfg2.win 2).cut (grid2.coords t) ((dat2 V c).after 2 t) = _
  rw [after2_2]
  unfold out2_2
  rw [View.canon_unit_zero zero_offsets]
  simp only [View.ld_unit_zero (S := S256x10000) zero_offsets, View.ld_unit_zero (S := S10000x128) zero_offsets]
  obtain ⟨e0, e1, e2, e3, e4, e5⟩ := block_indices t
  funext y
  show k2_pay1 (iblk2 V c 0 t) (iblk2 V c 1 t) y
    = mm (a := 2048) (K := 10000) (b := 128) (V c main_arg2) (V c main_v2) (((cfg2.win 2).blk t).view.emb y)
  rw [pay2_apply]
  have hy0 : (y 0).val < 256 := (y 0).isLt
  have hy1 : (y 1).val < 128 := (y 1).isLt
  refine mm_entry_congr _ _ _ _ y _ (fun k => ?_) (fun k => ?_)
  · show V c main_arg2 (((cfg2.win 0).blk t).view.emb (ix2 (y 0) k)) = V c main_arg2 (ix2 ((((cfg2.win 2).blk t).view.emb y) 0) k)
    refine congrArg (V c main_arg2) (funext fun a => Fin.ext ?_)
    match a with
    | ⟨0, _⟩ => show win2_0.index t (0 : Fin 2) * 256 + 1 * (y 0).val = win2_2.index t (0 : Fin 2) * 256 + 1 * (y 0).val; omega
    | ⟨1, _⟩ => show win2_0.index t (1 : Fin 2) * 10000 + 1 * k.val = k.val; omega
  · show V c main_v2 (((cfg2.win 1).blk t).view.emb (ix2 k (y 1))) = V c main_v2 (ix2 k ((((cfg2.win 2).blk t).view.emb y) 1))
    refine congrArg (V c main_v2) (funext fun a => Fin.ext ?_)
    match a with
    | ⟨0, _⟩ => show win2_1.index t (0 : Fin 2) * 10000 + 1 * k.val = k.val; omega
    | ⟨1, _⟩ => show win2_1.index t (1 : Fin 2) * 128 + 1 * (y 1).val = win2_2.index t (1 : Fin 2) * 128 + 1 * (y 1).val; omega

/-- An entry of the output array is in point t's block iff its row is in band t. -/
theorem mem_blk (t : Fin cfg2.N) (i : S2048x128.Idx) :
    i ∈ ((cfg2.win 2).blk t).view.set ↔ ∀ a : Fin 2, win2_2.index t a * S256x128.size a ≤ (i a).val ∧ (i a).val < win2_2.index t a * S256x128.size a + S256x128.size a := by
  show i ∈ ((View.whole main_v3).slice (win2_2.rect t)).set ↔ _
  rw [View.set_slice_whole, Rect.mem_set_unit]
  exact Iff.rfl

/-- The eight bands of 256 rows cover the 2048 rows: row r is in band r / 256. -/
theorem cover (i : S2048x128.Idx) : ∃ t : Fin cfg2.N, (cfg2.win 2).flush t = true ∧ i ∈ ((cfg2.win 2).blk t).view.set := by
  have hi0 : (i 0).val < 2048 := (i 0).isLt
  have hi1 : (i 1).val < 128 := (i 1).isLt
  have hlt : (i 0).val / 256 < 8 := by omega
  refine ⟨⟨(i 0).val / 256, hlt⟩, flush2_2 _, ?_⟩
  rw [mem_blk]
  obtain ⟨-, -, -, -, e4, e5⟩ := block_indices ⟨(i 0).val / 256, hlt⟩
  have e4' : win2_2.index ⟨(i 0).val / 256, hlt⟩ (0 : Fin 2) = (i 0).val / 256 := e4
  intro a
  match a with
  | ⟨0, _⟩ => show win2_2.index ⟨(i 0).val / 256, hlt⟩ (0 : Fin 2) * 256 ≤ (i 0).val ∧ (i 0).val < win2_2.index ⟨(i 0).val / 256, hlt⟩ (0 : Fin 2) * 256 + 256; omega
  | ⟨1, _⟩ => show win2_2.index ⟨(i 0).val / 256, hlt⟩ (1 : Fin 2) * 128 ≤ (i 1).val ∧ (i 1).val < win2_2.index ⟨(i 0).val / 256, hlt⟩ (1 : Fin 2) * 128 + 128; omega

/-- After the stage its output array holds the whole product HT · x of the arrays it found. -/
theorem final (c : Dev nD) : (dat2 V c).arrAt 2 cfg2.N = mm (a := 2048) (K := 10000) (b := 128) (V c main_arg2) (V c main_v2) :=
  (dat2 V c).arrAt_eq_of_cover 2 _ (fun t _ => flushed_eq V c t) cover

end Cert.HyperConv.Stage2

end
-- ==== Proof.Stage3.lean ====
/-
  The last node-side stage, from blocks to the whole array.

  Ten grid points; at point t the stage loads band t (1000 rows) of the incidence matrix HS, the whole hyperedge matrix
  T, band t of the features after one round (x₁) and of the initial features (x₀), and the 1 × 3 row of logits, and
  writes band t of w₀·x₀ + (w₁ + w₂)·x₁ + w₂·max (HS · T) 0, w the softmax of the logits. The weights are the same at
  every point, band t of HS · T is the product of band t of HS with T, and the rest acts entry by entry: every point
  writes back its band of ONE matrix, and the ten bands cover the 10000 rows.
-/
import proofs.«136136_g26070451486833_cont_8to1_1708_3_alg».proof.Proof.Gen.KernelIdeal.Frame
import proofs.«136136_g26070451486833_cont_8to1_1708_3_alg».proof.Proof.Payload

set_option maxRecDepth 16384

noncomputable section

namespace Cert.HyperConv.Stage3

open Cert.KernelIdeal Cert.KernelIdeal.Gen Idealize.ShloMosaic Idealize.ShloMosaic.TcCoe Idealize.SL.Sem
open Idealize.ShloMosaic.ValueIdx Cert.LibMatProd Cert.HyperConv Cert.HyperConv.Payload
open Idealize.ShloMosaic.Pipeline (Dat)

-- the arrays as the stage finds them
variable (V : (c : Dev nD) → (b : Ref sig .tc) → Buf (Elt Ideal) ((c : Thread nD τ).loc b))

theorem zero_offsets : (![0, 0] : Fin 2 → Nat) = fun _ => 0 := funext fun a => by fin_cases a <;> rfl

/-- Where each window's block sits at grid point t. -/
theorem in_indices : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0
    ∧ win3_3.index t (0 : Fin 2) = t.val ∧ win3_3.index t (1 : Fin 2) = 0
    ∧ win3_4.index t (0 : Fin 2) = 0 ∧ win3_4.index t (1 : Fin 2) = 0 :=
  (by decide +kernel : ∀ t : Fin grid3.N, _)
theorem out_indices : ∀ t : Fin cfg3.N, win3_5.index t (0 : Fin 2) = t.val ∧ win3_5.index t (1 : Fin 2) = 0 :=
  (by decide +kernel : ∀ t : Fin grid3.N, _)

/-- The row of logits is loaded whole at every point. -/
theorem logits_block (c : Dev nD) (t : Fin cfg3.N) : iblk3 V c 4 t = V c main_v0 := by
  obtain ⟨-, -, -, -, -, -, -, -, e8, e9⟩ := in_indices t
  funext z
  show V c main_v0 (((cfg3.win 4).blk t).view.emb z) = V c main_v0 z
  refine congrArg (V c main_v0) (funext fun a => Fin.ext ?_)
  match a with
  | ⟨0, _⟩ => show win3_4.index t (0 : Fin 2) * 1 + 1 * (z 0).val = (z 0).val; omega
  | ⟨1, _⟩ => show win3_4.index t (1 : Fin 2) * 3 + 1 * (z 1).val = (z 1).val; omega

/-- What point t writes back is band t of the grouped weighted sum. -/
theorem flushed_eq (c : Dev nD) (t : Fin cfg3.N) :
    (dat3 V c).flushed 5 t = ((cfg3.win 5).blk t).view.read (Elt Ideal)
      (combine (V c main_arg1) (V c main_v3) (V c main_v2) (V c main_arg0) (logitsOf (V c main_v0))) := by
  show (cfg3.win 5).cut (grid3.coords t) ((dat3 V c).after 5 t) = _
  rw [after3_5]
  unfold out3_5
  rw [View.canon_unit_zero zero_offsets]
  simp only [View.ld_unit_zero (S := S1000x2048) zero_offsets, View.ld_unit_zero (S := S2048x128) zero_offsets,
    View.ld_unit_zero (S := S1000x128) zero_offsets, View.ld_unit_zero (S := S1x3) zero_offsets]
  obtain ⟨e0, e1, e2, e3, e4, e5, e6, e7, -, -⟩ := in_indices t
  obtain ⟨o0, o1⟩ := out_indices t
  funext y
  show k3_pay1 (iblk3 V c 4 t) (iblk3 V c 0 t) (iblk3 V c 1 t) (iblk3 V c 3 t) (iblk3 V c 2 t) y
    = combine (V c main_arg1) (V c main_v3) (V c main_v2) (V c main_arg0) (logitsOf (V c main_v0)) (((cfg3.win 5).blk t).view.emb y)
  rw [pay3_apply, logits_block]
  have hy0 : (y 0).val < 1000 := (y 0).isLt
  have hy1 : (y 1).val < 128 := (y 1).isLt
  unfold combine
  refine congrArg₂ (· + ·) (congrArg₂ (· + ·) (congrArg (fun s => weight (logitsOf (V c main_v0)) 0 * s) ?_)
      (congrArg (fun s => (weight (logitsOf (V c main_v0)) 1 + weight (logitsOf (V c main_v0)) 2) * s) ?_))
    (congrArg (fun s => weight (logitsOf (V c main_v0)) 2 * max s (0 : EReal)) (mm_entry_congr _ _ _ _ y _ (fun k => ?_) (fun k => ?_)))
  · show V c main_arg0 (((cfg3.win 3).blk t).view.emb y) = V c main_arg0 (((cfg3.win 5).blk t).view.emb y)
    refine congrArg (V c main_arg0) (funext fun a => Fin.ext ?_)
    match a with
    | ⟨0, _⟩ => show win3_3.index t (0 : Fin 2) * 1000 + 1 * (y 0).val = win3_5.index t (0 : Fin 2) * 1000 + 1 * (y 0).val; omega
    | ⟨1, _⟩ => show win3_3.index t (1 : Fin 2) * 128 + 1 * (y 1).val = win3_5.index t (1 : Fin 2) * 128 + 1 * (y 1).val; omega
  · show V c main_v2 (((cfg3.win 2).blk t).view.emb y) = V c main_v2 (((cfg3.win 5).blk t).view.emb y)
    refine congrArg (V c main_v2) (funext fun a => Fin.ext ?_)
    match a with
    | ⟨0, _⟩ => show win3_2.index t (0 : Fin 2) * 1000 + 1 * (y 0).val = win3_5.index t (0 : Fin 2) * 1000 + 1 * (y 0).val; omega
    | ⟨1, _⟩ => show win3_2.index t (1 : Fin 2) * 128 + 1 * (y 1).val = win3_5.index t (1 : Fin 2) * 128 + 1 * (y 1).val; omega
  · show V c main_arg1 (((cfg3.win 0).blk t).view.emb (ix2 (y 0) k)) = V c main_arg1 (ix2 ((((cfg3.win 5).blk t).view.emb y) 0) k)
    refine congrArg (V c main_arg1) (funext fun a => Fin.ext ?_)
    match a with
    | ⟨0, _⟩ => show win3_0.index t (0 : Fin 2) * 1000 + 1 * (y 0).val = win3_5.index t (0 : Fin 2) * 1000 + 1 * (y 0).val; omega
    | ⟨1, _⟩ => show win3_0.index t (1 : Fin 2) * 2048 + 1 * k.val = k.val; omega
  · show V c main_v3 (((cfg3.win 1).blk t).view.emb (ix2 k (y 1))) = V c main_v3 (ix2 k ((((cfg3.win 5).blk t).view.emb y) 1))
    refine congrArg (V c main_v3) (funext fun a => Fin.ext ?_)
    match a with
    | ⟨0, _⟩ => show win3_1.index t (0 : Fin 2) * 2048 + 1 * k.val = k.val; omega
    | ⟨1, _⟩ => show win3_1.index t (1 : Fin 2) * 128 + 1 * (y 1).val = win3_5.index t (1 : Fin 2) * 128 + 1 * (y 1).val; omega

/-- An entry of the output array is in point t's block iff its row is in band t. -/
theorem mem_blk (t : Fin cfg3.N) (i : S10000x128.Idx) :
    i ∈ ((cfg3.win 5).blk t).view.set ↔ ∀ a : Fin 2, win3_5.index t a * S1000x128.size a ≤ (i a).val ∧ (i a).val < win3_5.index t a * S1000x128.size a + S1000x128.size a := by
  show i ∈ ((View.whole main_v4).slice (win3_5.rect t)).set ↔ _
  rw [View.set_slice_whole, Rect.mem_set_unit]
  exact Iff.rfl

/-- The ten bands of 1000 rows cover the 10000 rows: row r is in band r / 1000. -/
theorem cover (i : S10000x128.Idx) : ∃ t : Fin cfg3.N, (cfg3.win 5).flush t = true ∧ i ∈ ((cfg3.win 5).blk t).view.set := by
  have hi0 : (i 0).val < 10000 := (i 0).isLt
  have hi1 : (i 1).val < 128 := (i 1).isLt
  have hlt : (i 0).val / 1000 < 10 := by omega
  refine ⟨⟨(i 0).val / 1000, hlt⟩, flush3_5 _, ?_⟩
  rw [mem_blk]
  have e4 : win3_5.index ⟨(i 0).val / 1000, hlt⟩ (0 : Fin 2) = (i 0).val / 1000 := (out_indices ⟨(i 0).val / 1000, hlt⟩).1
  have e5 : win3_5.index ⟨(i 0).val / 1000, hlt⟩ (1 : Fin 2) = 0 := (out_indices ⟨(i 0).val / 1000, hlt⟩).2
  intro a
  match a with
  | ⟨0, _⟩ => show win3_5.index ⟨(i 0).val / 1000, hlt⟩ (0 : Fin 2) * 1000 ≤ (i 0).val ∧ (i 0).val < win3_5.index ⟨(i 0).val / 1000, hlt⟩ (0 : Fin 2) * 1000 + 1000; omega
  | ⟨1, _⟩ => show win3_5.index ⟨(i 0).val / 1000, hlt⟩ (1 : Fin 2) * 128 ≤ (i 1).val ∧ (i 1).val < win3_5.index ⟨(i 0).val / 1000, hlt⟩ (1 : Fin 2) * 128 + 128; omega

/-- After the stage its output array holds the grouped weighted sum of the arrays it found. -/
theorem final (c : Dev nD) : (dat3 V c).arrAt 5 cfg3.N
    = combine (V c main_arg1) (V c main_v3) (V c main_v2) (V c main_arg0) (logitsOf (V c main_v0)) :=
  (dat3 V c).arrAt_eq_of_cover 5 _ (fun t _ => flushed_eq V c t) cover

end Cert.HyperConv.Stage3

end
-- ==== Proof.Chain.lean ====
/-
  The idealized kernel's result, as one function of the arguments.

  The buffer contents at the boundaries between the stages are followed from the launch to the return. The host reshape
  writes the logits as a 1 × 3 row and touches nothing else. The first hyperedge-side stage leaves T₁ = HT · x₀ in its
  output and every other array as it was; the first node-side stage leaves x₁ = max (HS · T₁) 0 + x₀; the second
  hyperedge-side stage leaves T₂ = HT · x₁; the last stage leaves w₀·x₀ + (w₁ + w₂)·x₁ + w₂·max (HS · T₂) 0 with w the
  softmax of the logits read back from the row — which is the grouped weighted sum of the three feature matrices.
-/
import proofs.«136136_g26070451486833_cont_8to1_1708_3_alg».proof.Proof.RunNamed
import proofs.«136136_g26070451486833_cont_8to1_1708_3_alg».proof.Proof.Stage0
import proofs.«136136_g26070451486833_cont_8to1_1708_3_alg».proof.Proof.Stage1
import proofs.«136136_g26070451486833_cont_8to1_1708_3_alg».proof.Proof.Stage2
import proofs.«136136_g26070451486833_cont_8to1_1708_3_alg».proof.Proof.Stage3

set_option maxRecDepth 16384

noncomputable section

namespace Cert.HyperConv.Chain

open Cert.KernelIdeal Cert.KernelIdeal.Gen Idealize.ShloMosaic Idealize.ShloMosaic.TcCoe Idealize.SL.Sem
open Idealize.ShloMosaic.ValueIdx Cert.LibMatProd Cert.HyperConv Cert.HyperConv.Payload
open Idealize.ShloMosaic.Pipeline (Dat)

variable (m : (ℓ : Loc nD τ sig) → Buf (Elt Ideal) ℓ) (ρ : Dev nD → PrngReg) (c : Dev nD)

/-! ## After the host reshape -/

theorem W1_arg0 : W1 m ρ c (Proc.devRef .tc main_arg0) = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.reshape_writes, Finset.mem_singleton]
    repeat' apply And.intro
    all_goals exact StableHlo.devRef_ne_of_ne (by decide)))
theorem W1_arg1 : W1 m ρ c (Proc.devRef .tc main_arg1) = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.reshape_writes, Finset.mem_singleton]
    repeat' apply And.intro
    all_goals exact StableHlo.devRef_ne_of_ne (by decide)))
theorem W1_arg2 : W1 m ρ c (Proc.devRef .tc main_arg2) = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.reshape_writes, Finset.mem_singleton]
    repeat' apply And.intro
    all_goals exact StableHlo.devRef_ne_of_ne (by decide)))

/-- The row of logits the reshape writes, read back as a vector of three, is the logits. -/
theorem W1_logits : logitsOf (W1 m ρ c (Proc.devRef .tc main_v0)) = m ((c : Thread nD τ).loc main_arg3) := by
  have e : (W1 m ρ c (Proc.devRef .tc main_v0) : S1x3.Idx → EReal) = shapeCast S1x3 (m ((c : Thread nD τ).loc main_arg3)) shapeCasts_S3_S1x3 := by
    show StableHlo.after hostOps0 (W0 m ρ c) (Proc.devRef .tc main_v0) = _
    after_results
    rfl
  unfold logitsOf
  rw [e]
  exact shapeCast_shapeCast _ _ _

/-! ## After the first hyperedge-side stage -/

theorem W2_arg0 : W2 m ρ c (Proc.devRef .tc main_arg0) = m ((c : Thread nD τ).loc main_arg0) :=
  ((W2_arr m ρ c 1).trans (((dat0 (V1 m ρ) c).arrAt_in 1 rfl _).trans (A_eq0 (V1 m ρ) c 1))).trans (W1_arg0 m ρ c)
theorem W2_arg1 : W2 m ρ c (Proc.devRef .tc main_arg1) = m ((c : Thread nD τ).loc main_arg1) :=
  (W2_of_ne m ρ c main_arg1 (by decide)).trans (W1_arg1 m ρ c)
theorem W2_arg2 : W2 m ρ c (Proc.devRef .tc main_arg2) = m ((c : Thread nD τ).loc main_arg2) :=
  ((W2_arr m ρ c 0).trans (((dat0 (V1 m ρ) c).arrAt_in 0 rfl _).trans (A_eq0 (V1 m ρ) c 0))).trans (W1_arg2 m ρ c)
theorem W2_v0 : W2 m ρ c (Proc.devRef .tc main_v0) = W1 m ρ c (Proc.devRef .tc main_v0) :=
  W2_of_ne m ρ c main_v0 (by decide)
/-- T₁ = HT · x₀. -/
theorem W2_v1 : W2 m ρ c (Proc.devRef .tc main_v1) = mm (a := 2048) (K := 10000) (b := 128) (m ((c : Thread nD τ).loc main_arg2)) (m ((c : Thread nD τ).loc main_arg0)) := by
  refine (W2_arr m ρ c 2).trans ((Stage0.final (V1 m ρ) c).trans ?_)
  rw [show V1 m ρ c main_arg2 = _ from W1_arg2 m ρ c, show V1 m ρ c main_arg0 = _ from W1_arg0 m ρ c]

/-! ## After the first node-side stage -/

theorem W3_arg0 : W3 m ρ c (Proc.devRef .tc main_arg0) = m ((c : Thread nD τ).loc main_arg0) :=
  ((W3_arr m ρ c 2).trans (((dat1 (V2 m ρ) c).arrAt_in 2 rfl _).trans (A_eq1 (V2 m ρ) c 2))).trans (W2_arg0 m ρ c)
theorem W3_arg1 : W3 m ρ c (Proc.devRef .tc main_arg1) = m ((c : Thread nD τ).loc main_arg1) :=
  ((W3_arr m ρ c 0).trans (((dat1 (V2 m ρ) c).arrAt_in 0 rfl _).trans (A_eq1 (V2 m ρ) c 0))).trans (W2_arg1 m ρ c)
theorem W3_arg2 : W3 m ρ c (Proc.devRef .tc main_arg2) = m ((c : Thread nD τ).loc main_arg2) :=
  (W3_of_ne m ρ c main_arg2 (by decide)).trans (W2_arg2 m ρ c)
theorem W3_v0 : W3 m ρ c (Proc.devRef .tc main_v0) = W1 m ρ c (Proc.devRef .tc main_v0) :=
  (W3_of_ne m ρ c main_v0 (by decide)).trans (W2_v0 m ρ c)
/-- x₁ = max (HS · T₁) 0 + x₀, one round. -/
theorem W3_v2 : W3 m ρ c (Proc.devRef .tc main_v2) = layer (m ((c : Thread nD τ).loc main_arg1)) (m ((c : Thread nD τ).loc main_arg2)) (m ((c : Thread nD τ).loc main_arg0)) := by
  refine (W3_arr m ρ c 3).trans ((Stage1.final (V2 m ρ) c).trans ?_)
  rw [show V2 m ρ c main_arg1 = _ from W2_arg1 m ρ c, show V2 m ρ c main_v1 = _ from W2_v1 m ρ c,
    show V2 m ρ c main_arg0 = _ from W2_arg0 m ρ c]
  rfl

/-! ## After the second hyperedge-side stage -/

theorem W4_arg0 : W4 m ρ c (Proc.devRef .tc main_arg0) = m ((c : Thread nD τ).loc main_arg0) :=
  (W4_of_ne m ρ c main_arg0 (by decide)).trans (W3_arg0 m ρ c)
theorem W4_arg1 : W4 m ρ c (Proc.devRef .tc main_arg1) = m ((c : Thread nD τ).loc main_arg1) :=
  (W4_of_ne m ρ c main_arg1 (by decide)).trans (W3_arg1 m ρ c)
theorem W4_v0 : W4 m ρ c (Proc.devRef .tc main_v0) = W1 m ρ c (Proc.devRef .tc main_v0) :=
  (W4_of_ne m ρ c main_v0 (by decide)).trans (W3_v0 m ρ c)
theorem W4_v2 : W4 m ρ c (Proc.devRef .tc main_v2) = layer (m ((c : Thread nD τ).loc main_arg1)) (m ((c : Thread nD τ).loc main_arg2)) (m ((c : Thread nD τ).loc main_arg0)) :=
  ((W4_arr m ρ c 1).trans (((dat2 (V3 m ρ) c).arrAt_in 1 rfl _).trans (A_eq2 (V3 m ρ) c 1))).trans (W3_v2 m ρ c)
/-- T₂ = HT · x₁. -/
theorem W4_v3 : W4 m ρ c (Proc.devRef .tc main_v3)
    = mm (a := 2048) (K := 10000) (b := 128) (m ((c : Thread nD τ).loc main_arg2)) (layer (m ((c : Thread nD τ).loc main_arg1)) (m ((c : Thread nD τ).loc main_arg2)) (m ((c : Thread nD τ).loc main_arg0))) := by
  refine (W4_arr m ρ c 2).trans ((Stage2.final (V3 m ρ) c).trans ?_)
  rw [show V3 m ρ c main_arg2 = _ from W3_arg2 m ρ c, show V3 m ρ c main_v2 = _ from W3_v2 m ρ c]

/-! ## After the last stage -/

/-- The result array ends holding the grouped weighted sum of the three feature matrices. -/
theorem W5_result : W5 m ρ c (Proc.devRef .tc main_v4)
    = groupedSum (m ((c : Thread nD τ).loc main_arg1)) (m ((c : Thread nD τ).loc main_arg2)) (m ((c : Thread nD τ).loc main_arg0)) (m ((c : Thread nD τ).loc main_arg3)) := by
  refine (W5_arr m ρ c 5).trans ((Stage3.final (V4 m ρ) c).trans ?_)
  rw [show V4 m ρ c main_arg1 = _ from W4_arg1 m ρ c, show V4 m ρ c main_v3 = _ from W4_v3 m ρ c,
    show V4 m ρ c main_v2 = _ from W4_v2 m ρ c, show V4 m ρ c main_arg0 = _ from W4_arg0 m ρ c,
    show V4 m ρ c main_v0 = _ from W4_v0 m ρ c, W1_logits]
  rfl

end Cert.HyperConv.Chain

end
-- ==== Proof.RefValue.lean ====
/-
  The reference, read operation by operation, is the plain weighted sum.

  Its two matrix products per round are HT · x and HS · (HT · x); the clip at zero and the residual add make one round;
  the softmax of the three logits is exp (a − max a) over its total (the maximum taken once more against −∞, which
  changes nothing; the total started from zero); the three feature matrices are stacked along a new leading axis,
  multiplied by the weights laid along that axis, and summed over it from zero.
-/
import proofs.«136136_g26070451486833_cont_8to1_1708_3_alg».proof.Proof.Gen.ReferenceIdeal.Read
import proofs.«136136_g26070451486833_cont_8to1_1708_3_alg».proof.Proof.Spec
import proofs.«136136_g26070451486833_cont_8to1_1708_3_alg».proof.Proof.LibRowMax

set_option maxRecDepth 16384

noncomputable section

namespace Cert.HyperConv.Ref

open Cert.ReferenceIdeal Cert.ReferenceIdeal.Gen Cert.ReferenceIdeal.Read Idealize.ShloMosaic
open Idealize.ShloMosaic.ValueIdx Cert.LibMatProd Cert.HyperConv Cert.LibReals

variable (x0 : (⟨S10000x128, .f32⟩ : BufTy).Contents (Elt Ideal)) (x1 : (⟨S10000x2048, .f32⟩ : BufTy).Contents (Elt Ideal)) (x2 : (⟨S2048x10000, .f32⟩ : BufTy).Contents (Elt Ideal)) (x3 : (⟨S3, .f32⟩ : BufTy).Contents (Elt Ideal))

/-! ## The operand entries each product pairs -/

theorem lidx0 (i : S2048x128.Idx) (k : Fin 10000) : lidx_main_v0 i k = ix2 (i 0) k :=
  funext fun a => Fin.ext (by match a with | ⟨0, _⟩ => rfl | ⟨1, _⟩ => rfl)
theorem ridx0 (i : S2048x128.Idx) (k : Fin 10000) : ridx_main_v0 i k = ix2 k (i 1) :=
  funext fun a => Fin.ext (by match a with | ⟨0, _⟩ => rfl | ⟨1, _⟩ => rfl)

theorem lidx1 (i : S10000x128.Idx) (k : Fin 2048) : lidx_main_v1 i k = ix2 (i 0) k :=
  funext fun a => Fin.ext (by match a with | ⟨0, _⟩ => rfl | ⟨1, _⟩ => rfl)
theorem ridx1 (i : S10000x128.Idx) (k : Fin 2048) : ridx_main_v1 i k = ix2 k (i 1) :=
  funext fun a => Fin.ext (by match a with | ⟨0, _⟩ => rfl | ⟨1, _⟩ => rfl)

theorem lidx4 (i : S2048x128.Idx) (k : Fin 10000) : lidx_main_v4 i k = ix2 (i 0) k :=
  funext fun a => Fin.ext (by match a with | ⟨0, _⟩ => rfl | ⟨1, _⟩ => rfl)
theorem ridx4 (i : S2048x128.Idx) (k : Fin 10000) : ridx_main_v4 i k = ix2 k (i 1) :=
  funext fun a => Fin.ext (by match a with | ⟨0, _⟩ => rfl | ⟨1, _⟩ => rfl)

theorem lidx5 (i : S10000x128.Idx) (k : Fin 2048) : lidx_main_v5 i k = ix2 (i 0) k :=
  funext fun a => Fin.ext (by match a with | ⟨0, _⟩ => rfl | ⟨1, _⟩ => rfl)
theorem ridx5 (i : S10000x128.Idx) (k : Fin 2048) : ridx_main_v5 i k = ix2 k (i 1) :=
  funext fun a => Fin.ext (by match a with | ⟨0, _⟩ => rfl | ⟨1, _⟩ => rfl)

/-! ## The two rounds -/

theorem v0_eq : val_main_v0 (F := Ideal) x0 x2 = mm (a := 2048) (K := 10000) (b := 128) x2 x0 := by
  funext i
  rw [val_main_v0_apply, mm_apply]
  refine Finset.sum_congr rfl fun k _ => ?_
  rw [lidx0, ridx0]
  rfl

theorem v1_eq : val_main_v1 (F := Ideal) x0 x1 x2 = msg x1 x2 x0 := by
  funext i
  rw [val_main_v1_apply, v0_eq]
  unfold msg
  rw [mm_apply]
  refine Finset.sum_congr rfl fun k _ => ?_
  rw [lidx1, ridx1]
  rfl

theorem v3_eq : val_main_v3 (F := Ideal) x0 x1 x2 = layer x1 x2 x0 := by
  funext i
  rw [val_main_v3_apply, val_main_v2_apply, val_main_call0_v0_apply, val_main_call0_cst_apply, v1_eq]
  show max (msg x1 x2 x0 i) (Ideal.ofBits .f32 0x00000000#32) + x0 i = _
  rw [Ideal.ofBits_zero_f32]
  rfl

theorem v4_eq : val_main_v4 (F := Ideal) x0 x1 x2 = mm (a := 2048) (K := 10000) (b := 128) x2 (layer x1 x2 x0) := by
  funext i
  rw [val_main_v4_apply, v3_eq, mm_apply]
  refine Finset.sum_congr rfl fun k _ => ?_
  rw [lidx4, ridx4]
  rfl

theorem v5_eq : val_main_v5 (F := Ideal) x0 x1 x2 = msg x1 x2 (layer x1 x2 x0) := by
  funext i
  rw [val_main_v5_apply, v4_eq]
  unfold msg
  rw [mm_apply]
  refine Finset.sum_congr rfl fun k _ => ?_
  rw [lidx5, ridx5]
  rfl

theorem v7_eq : val_main_v7 (F := Ideal) x0 x1 x2 = layer x1 x2 (layer x1 x2 x0) := by
  funext i
  rw [val_main_v7_apply, val_main_v6_apply, val_main_call1_v0_apply, val_main_call1_cst_apply, v5_eq, v3_eq]
  show max (msg x1 x2 (layer x1 x2 x0) i) (Ideal.ofBits .f32 0x00000000#32) + layer x1 x2 x0 i = _
  rw [Ideal.ofBits_zero_f32]
  rfl

/-! ## The softmax weights -/

instance : Subsingleton S_.Idx := ⟨fun a b => funext fun d => d.elim0⟩

theorem v9_eq (i : S_.Idx) : val_main_v9 (F := Ideal) x3 i = amax x3 := by
  rw [val_main_v9_apply, val_main_cst_0_apply]
  unfold val_main_v8
  show max (Ideal.ofBits .f32 0xFF800000#32) (Host.reduce (FloatOps.maximumf (F := Ideal) (φ := .f32)) x3 (val_main_cst (F := Ideal)) reducesTo_S3_S_d0 h_S_ i) = _
  rw [Host.reduce_eq_fold, val_main_cst_apply]
  show max (Ideal.ofBits .f32 0xFF800000#32) (Finset.fold max (Ideal.ofBits .f32 0xFF800000#32) _ _) = _
  rw [ofBits_neg_inf, Cert.LibRowMax.max_fold_max_self]
  exact fold_max_ix1 ⊥ x3 _ fun j => Finset.mem_filter.2 ⟨Finset.mem_univ _, Subsingleton.elim _ _⟩

theorem v13_eq (k : Fin 3) : val_main_v13 (F := Ideal) x3 (ix1 k) = expo x3 k := by
  rw [val_main_v13_apply, val_main_v12_apply, val_main_v11_apply, val_main_v10_apply, v9_eq]
  rfl

theorem v14_eq (i : S_.Idx) : val_main_v14 (F := Ideal) x3 i = total x3 := by
  rw [val_main_v14_apply, val_main_cst_1_apply]
  show Ideal.ofBits .f32 0x00000000#32 + _ = _
  rw [Ideal.ofBits_zero_f32, zero_add, sum_ix1]
  exact Finset.sum_congr rfl fun k _ => v13_eq x3 k

theorem v17_eq (k : Fin 3) : val_main_v17 (F := Ideal) x3 (ix1 k) = weight x3 k := by
  rw [val_main_v17_apply, val_main_v16_apply, val_main_v15_apply, v14_eq, v13_eq]
  rfl

/-! ## The stack and the weighted sum -/

section Pieces
variable (A0 A1 A2 : S1x10000x128.Idx → EReal) (i : S10000x128.Idx)

theorem off_axis (l : Fin 3) (b : Fin 3) (hb : b.cast (rfl : S1x10000x128.rank = S3x10000x128.rank) ≠ (0 : Fin 3)) :
    ((ix3 (0 : Fin 1) (i 0) (i 1) : S1x10000x128.Idx) b).val = ((idx_main_v25 i l) (b.cast rfl)).val := by
  match b with
  | ⟨0, _⟩ => exact absurd rfl hb
  | ⟨1, _⟩ => rfl
  | ⟨2, _⟩ => rfl

/-- Three unit slabs joined along the leading axis: the slab the leading coordinate names, at the remaining coordinates. -/
theorem slab0 : concatenate S3x10000x128 0 [⟨S1x10000x128, A0⟩, ⟨S1x10000x128, A1⟩, ⟨S1x10000x128, A2⟩]
      concatenates_S1x10000x128_S1x10000x128_S1x10000x128_S3x10000x128_d0 (idx_main_v25 i 0) = A0 (ix3 0 (i 0) (i 1)) :=
  concatenate_apply_piece (0 : Fin 3) [⟨S1x10000x128, A0⟩, ⟨S1x10000x128, A1⟩, ⟨S1x10000x128, A2⟩] _ (idx_main_v25 i 0)
    0 (by show (0 : ℕ) < 3; omega) S1x10000x128 A0 rfl rfl 0 rfl (ix3 0 (i 0) (i 1)) (off_axis i 0) rfl
theorem slab1 : concatenate S3x10000x128 0 [⟨S1x10000x128, A0⟩, ⟨S1x10000x128, A1⟩, ⟨S1x10000x128, A2⟩]
      concatenates_S1x10000x128_S1x10000x128_S1x10000x128_S3x10000x128_d0 (idx_main_v25 i 1) = A1 (ix3 0 (i 0) (i 1)) :=
  concatenate_apply_piece (0 : Fin 3) [⟨S1x10000x128, A0⟩, ⟨S1x10000x128, A1⟩, ⟨S1x10000x128, A2⟩] _ (idx_main_v25 i 1)
    1 (by show (1 : ℕ) < 3; omega) S1x10000x128 A1 rfl rfl 1 rfl (ix3 0 (i 0) (i 1)) (off_axis i 1) rfl
theorem slab2 : concatenate S3x10000x128 0 [⟨S1x10000x128, A0⟩, ⟨S1x10000x128, A1⟩, ⟨S1x10000x128, A2⟩]
      concatenates_S1x10000x128_S1x10000x128_S1x10000x128_S3x10000x128_d0 (idx_main_v25 i 2) = A2 (ix3 0 (i 0) (i 1)) :=
  concatenate_apply_piece (0 : Fin 3) [⟨S1x10000x128, A0⟩, ⟨S1x10000x128, A1⟩, ⟨S1x10000x128, A2⟩] _ (idx_main_v25 i 2)
    2 (by show (2 : ℕ) < 3; omega) S1x10000x128 A2 rfl rfl 2 rfl (ix3 0 (i 0) (i 1)) (off_axis i 2) rfl

end Pieces

/-- Layer l of the stacked array, at (l, p, q), is the l-th feature matrix at (p, q). -/
theorem v21_eq (i : S10000x128.Idx) (l : Fin 3) :
    val_main_v21 (F := Ideal) x0 x1 x2 (idx_main_v25 i l) = stack x1 x2 x0 l i := by
  unfold val_main_v21
  match l with
  | ⟨0, _⟩ =>
    refine (slab0 _ _ _ i).trans ?_
    rw [val_main_v18_apply]
    exact congrArg x0 (funext fun a => Fin.ext (by match a with | ⟨0, _⟩ => rfl | ⟨1, _⟩ => rfl))
  | ⟨1, _⟩ =>
    refine (slab1 _ _ _ i).trans ?_
    rw [val_main_v19_apply, v3_eq]
    exact congrArg (layer x1 x2 x0) (funext fun a => Fin.ext (by match a with | ⟨0, _⟩ => rfl | ⟨1, _⟩ => rfl))
  | ⟨2, _⟩ =>
    refine (slab2 _ _ _ i).trans ?_
    rw [val_main_v20_apply, v7_eq]
    exact congrArg (layer x1 x2 (layer x1 x2 x0)) (funext fun a => Fin.ext (by match a with | ⟨0, _⟩ => rfl | ⟨1, _⟩ => rfl))

/-- The reference's result is the plain weighted sum of the stack. -/
theorem v25_eq : val_main_v25 (F := Ideal) x0 x1 x2 x3 = plainSum x1 x2 x0 x3 := by
  funext i
  rw [val_main_v25_apply, val_main_cst_2_apply]
  show Ideal.ofBits .f32 0x00000000#32 + _ = _
  rw [Ideal.ofBits_zero_f32]
  unfold plainSum
  refine congrArg (fun s => (0 : EReal) + s) (Finset.sum_congr rfl fun l _ => ?_)
  rw [val_main_v24_apply, val_main_v23_apply, val_main_v22_apply, v21_eq]
  have hw : idx_main_v22 (idx_main_v23 (idx_main_v25 i l)) = ix1 l :=
    funext fun a => Fin.ext (by match a with | ⟨0, _⟩ => rfl)
  rw [hw, v17_eq]
  rfl

end Cert.HyperConv.Ref

end
-- ==== Proof.LibFinite.lean ====
/-
  "Every entry is finite", read back from a printed precondition.

  A precondition `jnp.all (|x| < +∞)` prints as an all-reduction by `and`, from the constant 1, of the one-bit array of
  the comparisons `|x i| < +∞`, the bound broadcast from a scalar.  If the reduction is 1 then every comparison is 1; and
  an extended real whose absolute value is below +∞ is neither infinity, so it is a real.
-/
import Idealize.ShloMosaic.Lib.ReduceAll
import Idealize.ShloMosaic.Lib.ValueIdx
import Idealize.ShloMosaic.PureOps.Ideal.Laws

noncomputable section

namespace Cert.LibFinite

open Idealize.ShloMosaic

/-- The scalar shape has one index. -/
instance : Subsingleton (⟨0, ![]⟩ : Shape).Idx := ⟨fun a b => funext fun d => d.elim0⟩

/-- An extended real whose absolute value is below +∞ is a real. -/
theorem real_of_abs_lt (x : EReal) (h : Ideal.cmp .olt (max x (-x)) (Ideal.ofBits .f32 0x7F800000#32) = 1#1) :
    ∃ r : ℝ, x = r := by
  have htop : Ideal.ofBits .f32 0x7F800000#32 = (⊤ : EReal) := by simp [Ideal.ofBits, Ideal.ieee]
  rw [htop] at h
  induction x using EReal.rec with
  | bot => simp [Ideal.cmp] at h
  | coe r => exact ⟨r, rfl⟩
  | top => simp [Ideal.cmp] at h

/-- One all-reduction of the comparisons "|x i| < +∞" being 1 makes every entry of `x` a real. -/
theorem all_real_of_reduce {s : Shape} {axes : List (Fin s.rank)} (x : FVec Ideal s .f32)
    (hb : (⟨0, ![]⟩ : Shape).BroadcastsInDim s (![] : Fin 0 → Fin s.rank))
    (hr : s.ReducesTo axes ⟨0, ![]⟩) (hu : 0 < (⟨0, ![]⟩ : Shape).numel)
    (e : Host.reduce IntOp.andi (cmpf .olt (Host.absf x) (broadcastInDim s ![] hb (constant (F := Ideal) ⟨0, ![]⟩ .f32 0x7F800000#32)))
      (constantI ⟨0, ![]⟩ 1 1#1) hr hu ValueIdx.ix0 = 1#1) (i : s.Idx) : ∃ r : ℝ, x i = r :=
  real_of_abs_lt (x i) (Host.reduce_andi_all _ _ hr hu ValueIdx.ix0 e i)

end Cert.LibFinite

end
-- ==== Proof.Finite.lean ====
/-
  Every argument entry is a real number, read back from the precondition.

  The precondition is the conjunction, argument by argument, of "every entry's absolute value is below +∞". Each
  conjunct is an all-reduction by `and` of the entrywise comparisons; if the conjunction is 1 each reduction is 1, so
  each comparison is 1, and an extended real with absolute value below +∞ is neither infinity.
-/
import proofs.«136136_g26070451486833_cont_8to1_1708_3_alg».proof.Proof.Gen.Pre_finite_inputs
import proofs.«136136_g26070451486833_cont_8to1_1708_3_alg».proof.Proof.LibFinite
import proofs.«136136_g26070451486833_cont_8to1_1708_3_alg».proof.Proof.Spec
import Idealize.ShloMosaic.Lib.Affine

noncomputable section

namespace Cert.HyperConv.Finite

open Cert.Pre_finite_inputs Cert.Pre_finite_inputs.Facts Idealize.ShloMosaic Cert.HyperConv Cert.LibReals

theorem all_real (a0 : FVec Ideal S10000x128 .f32) (a1 : FVec Ideal S10000x2048 .f32) (a2 : FVec Ideal S2048x10000 .f32)
    (a3 : FVec Ideal S3 .f32) (h : fn (F := Ideal) a0 a1 a2 a3 = fun _ => 1#1) :
    (∀ i, IsReal (a0 i)) ∧ (∀ i, IsReal (a1 i)) ∧ (∀ i, IsReal (a2 i)) ∧ (∀ i, IsReal (a3 i)) := by
  have h0 := congrFun h ValueIdx.ix0
  dsimp only [fn, fn_part1] at h0
  obtain ⟨h012, h3⟩ := IntOp.andi_eq_one.1 h0
  obtain ⟨h01, h2⟩ := IntOp.andi_eq_one.1 h012
  obtain ⟨h0', h1⟩ := IntOp.andi_eq_one.1 h01
  exact ⟨fun i => Cert.LibFinite.all_real_of_reduce a0 _ _ _ h0' i,
    fun i => Cert.LibFinite.all_real_of_reduce a1 _ _ _ h1 i,
    fun i => Cert.LibFinite.all_real_of_reduce a2 _ _ _ h2 i,
    fun i => Cert.LibFinite.all_real_of_reduce a3 _ _ _ h3 i⟩

end Cert.HyperConv.Finite

end
-- ==== Proof.lean ====
/-
  Two rounds of directed-hypergraph message passing with an attention-weighted sum of the layers: the kernel of four
  matrix-product stages against the plain jnp reference, equal on the extended reals under finite inputs.

  The kernel forms T₁ = HT · x₀, x₁ = max (HS · T₁) 0 + x₀, T₂ = HT · x₁ and finally
  w₀·x₀ + (w₁ + w₂)·x₁ + w₂·max (HS · T₂) 0 with w = softmax(logits); the reference forms x₁, x₂ = max (HS · (HT · x₁)) 0 + x₁
  and 0 + (x₀·w₀ + x₁·w₁ + x₂·w₂). The products, the clips and the softmax are the same functions on both sides; the two
  arrangements of the weighted sum differ by distributivity, which holds on the extended reals for real numbers — and under
  the precondition every argument entry is real, hence so is every intermediate entry.
-/
import proofs.«136136_g26070451486833_cont_8to1_1708_3_alg».proof.Defs
import proofs.«136136_g26070451486833_cont_8to1_1708_3_alg».proof.Proof.Gen.Kernel
import proofs.«136136_g26070451486833_cont_8to1_1708_3_alg».proof.Proof.Gen.Kernel.Frame
import proofs.«136136_g26070451486833_cont_8to1_1708_3_alg».proof.Proof.Gen.KernelIdeal
import proofs.«136136_g26070451486833_cont_8to1_1708_3_alg».proof.Proof.Gen.KernelIdeal.Frame
import proofs.«136136_g26070451486833_cont_8to1_1708_3_alg».proof.Proof.Gen.ReferenceIdeal
import proofs.«136136_g26070451486833_cont_8to1_1708_3_alg».proof.Proof.Gen.ReferenceIdeal.Run
import proofs.«136136_g26070451486833_cont_8to1_1708_3_alg».proof.Proof.Gen.ReferenceIdeal.Read
import proofs.«136136_g26070451486833_cont_8to1_1708_3_alg».proof.Proof.Gen.Pre_finite_inputs
import proofs.«136136_g26070451486833_cont_8to1_1708_3_alg».proof.Proof.Spec
import proofs.«136136_g26070451486833_cont_8to1_1708_3_alg».proof.Proof.Chain
import proofs.«136136_g26070451486833_cont_8to1_1708_3_alg».proof.Proof.RefValue
import proofs.«136136_g26070451486833_cont_8to1_1708_3_alg».proof.Proof.Finite
import Idealize.ShloMosaic.Adequacy
import Idealize.ShloMosaic.Init

noncomputable section

namespace Cert.Proof

open Idealize.ShloMosaic Idealize.ShloMosaic.TcCoe Idealize.SL.Sem Cert.HyperConv

/-- The word-level kernel runs and leaves its arguments unchanged. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference is a straight line of host operations: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end with the grouped weighted sum of x₀, x₁ and max (HS · (HT · x₁)) 0: the kernel computes it in that
    arrangement; the reference computes the plain sum, equal to it because every entry is real. -/
theorem algebraic : Cert.algebraic_KernelIdeal_ReferenceIdeal := by
  intro m ρ m' ρ' hpre hagree
  refine ⟨fun c => groupedSum (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg0)) (m ((c.tc : Thread Cert.KernelIdeal.nD Cert.KernelIdeal.τ).loc Cert.KernelIdeal.main_arg3)), ?_, ?_⟩
  · exact (θ_run Cert.KernelIdeal.defs _ _).mono (fun r h c => ⟨(h c).1.trans (Cert.HyperConv.Chain.W5_result m ρ c), (h c).2⟩)
      (Cert.HyperConv.Run.run_named (F := Ideal) m ρ)
  · refine (θ_run Cert.ReferenceIdeal.defs _ _).mono (fun r h c => ⟨?_, (h c).2⟩)
      (Cert.ReferenceIdeal.Value.run (F := Ideal) m' ρ')
    rw [(h c).1, Cert.ReferenceIdeal.Read.val_main_v25_eq, Cert.HyperConv.Ref.v25_eq,
      (hagree c).1, (hagree c).2.1, (hagree c).2.2.1, (hagree c).2.2.2]
    obtain ⟨r0, r1, r2, r3⟩ := Cert.HyperConv.Finite.all_real _ _ _ _ (hpre c)
    exact (groupedSum_eq_plainSum _ _ _ _ r1 r2 r0 r3).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
